-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x32x128 : Shape := ⟨3, ![32, 32, 128]⟩
abbrev S256x180x128 : Shape := ⟨3, ![256, 180, 128]⟩
abbrev S32x32 : Shape := ⟨2, ![32, 32]⟩
abbrev S256x180 : Shape := ⟨2, ![256, 180]⟩
abbrev S_ : Shape := ⟨0, ![]⟩

class Facts : Prop where
  bcast_S_S32x32x128 : S_.BroadcastsInDim S32x32x128 (![] : Fin 0 → Fin S32x32x128.rank)
  reducesTo_S32x32x128_S_d0_1_2 : S32x32x128.ReducesTo [0, 1, 2] S_
  h_S_ : 0 < S_.numel
  bcast_S_S256x180x128 : S_.BroadcastsInDim S256x180x128 (![] : Fin 0 → Fin S256x180x128.rank)
  reducesTo_S256x180x128_S_d0_1_2 : S256x180x128.ReducesTo [0, 1, 2] S_
  bcast_S_S32x32 : S_.BroadcastsInDim S32x32 (![] : Fin 0 → Fin S32x32.rank)
  reducesTo_S32x32_S_d0_1 : S32x32.ReducesTo [0, 1] S_
  bcast_S_S256x180 : S_.BroadcastsInDim S256x180 (![] : Fin 0 → Fin S256x180.rank)
  reducesTo_S256x180_S_d0_1 : S256x180.ReducesTo [0, 1] S_

variable [Facts]

def fn_part1 {F : FTy → Type} [FloatOps F] (main_v13 : IVec S_ 1) (main_v16 : IVec S256x180 1) : IVec S_ 1 :=
  let main_c_5 : IVec S_ 1 := constantI S_ 1 1#1
  let main_v17 : IVec S_ 1 := (fun x v => Host.reduce IntOp.andi x v reducesTo_S256x180_S_d0_1 h_S_) main_v16 main_c_5
  let main_v18 : IVec S_ 1 := andi main_v13 main_v17
  main_v18

def fn {F : FTy → Type} [FloatOps F] (main_arg0 : FVec F S32x32x128 .f32) (main_arg1 : FVec F S256x180x128 .f32) (main_arg2 : FVec F S32x32 .f32) (main_arg3 : FVec F S256x180 .f32) : IVec S_ 1 :=
  let main_v0 : FVec F S32x32x128 .f32 := Host.absf main_arg0
  let main_cst : FVec F S_ .f32 := constant S_ .f32 0x7F800000#32
  let main_v1 : FVec F S32x32x128 .f32 := broadcastInDim S32x32x128 ![] bcast_S_S32x32x128 main_cst
  let main_v2 : IVec S32x32x128 1 := cmpf .olt main_v0 main_v1
  let main_c : IVec S_ 1 := constantI S_ 1 1#1
  let main_v3 : IVec S_ 1 := (fun x v => Host.reduce IntOp.andi x v reducesTo_S32x32x128_S_d0_1_2 h_S_) main_v2 main_c
  let main_v4 : FVec F S256x180x128 .f32 := Host.absf main_arg1
  let main_cst_0 : FVec F S_ .f32 := constant S_ .f32 0x7F800000#32
  let main_v5 : FVec F S256x180x128 .f32 := broadcastInDim S256x180x128 ![] bcast_S_S256x180x128 main_cst_0
  let main_v6 : IVec S256x180x128 1 := cmpf .olt main_v4 main_v5
  let main_c_1 : IVec S_ 1 := constantI S_ 1 1#1
  let main_v7 : IVec S_ 1 := (fun x v => Host.reduce IntOp.andi x v reducesTo_S256x180x128_S_d0_1_2 h_S_) main_v6 main_c_1
  let main_v8 : IVec S_ 1 := andi main_v3 main_v7
  let main_v9 : FVec F S32x32 .f32 := Host.absf main_arg2
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S256x180 .f32 := Host.absf main_arg3
  let main_cst_4 : FVec F S_ .f32 := constant S_ .f32 0x7F800000#32
  let main_v15 : FVec F S256x180 .f32 := broadcastInDim S256x180 ![] bcast_S_S256x180 main_cst_4
  let main_v16 : IVec S256x180 1 := cmpf .olt main_v14 main_v15
  fn_part1 (F := F) main_v13 main_v16
-- ==== Kernel.lean ====
abbrev S32x32x128 : Shape := ⟨3, ![32, 32, 128]⟩
abbrev S256x180x128 : Shape := ⟨3, ![256, 180, 128]⟩
abbrev S32x32 : Shape := ⟨2, ![32, 32]⟩
abbrev S256x180 : Shape := ⟨2, ![256, 180]⟩
abbrev S32x32x1 : Shape := ⟨3, ![32, 32, 1]⟩
abbrev S1024x128 : Shape := ⟨2, ![1024, 128]⟩
abbrev S256x180x1 : Shape := ⟨3, ![256, 180, 1]⟩
abbrev S32x256 : Shape := ⟨2, ![32, 256]⟩
abbrev S16x180x128 : Shape := ⟨3, ![16, 180, 128]⟩
abbrev S32x128 : Shape := ⟨2, ![32, 128]⟩
abbrev S1x180x128 : Shape := ⟨3, ![1, 180, 128]⟩
abbrev S180x128 : Shape := ⟨2, ![180, 128]⟩
abbrev S1024x180 : Shape := ⟨2, ![1024, 180]⟩
abbrev S32x32x180 : Shape := ⟨3, ![32, 32, 180]⟩
abbrev S32 : Shape := ⟨1, ![32]⟩
abbrev S32x1 : Shape := ⟨2, ![32, 1]⟩
abbrev S32x16 : Shape := ⟨2, ![32, 16]⟩

abbrev nBuf : Space → Nat
  | .hbm => 17
  | .vmem => 6
  | .smem => 0
  | _ => 0

abbrev bufTy : (tb : Table) → Fin (tcTables nBuf tb) → BufTy
  | .hbm, ⟨0, _⟩ => ⟨S32x32x128, .f32⟩
  | .hbm, ⟨1, _⟩ => ⟨S256x180x128, .f32⟩
  | .hbm, ⟨2, _⟩ => ⟨S32x32, .f32⟩
  | .hbm, ⟨3, _⟩ => ⟨S256x180, .f32⟩
  | .hbm, ⟨4, _⟩ => ⟨S32x32x1, .f32⟩
  | .hbm, ⟨5, _⟩ => ⟨S32x32x128, .f32⟩
  | .hbm, ⟨6, _⟩ => ⟨S32x32x128, .f32⟩
  | .hbm, ⟨7, _⟩ => ⟨S1024x128, .f32⟩
  | .hbm, ⟨8, _⟩ => ⟨S1024x128, .bf16⟩
  | .hbm, ⟨9, _⟩ => ⟨S1024x128, .f32⟩
  | .hbm, ⟨10, _⟩ => ⟨S1024x128, .f32⟩
  | .hbm, ⟨11, _⟩ => ⟨S1024x128, .bf16⟩
  | .hbm, ⟨12, _⟩ => ⟨S256x180x1, .f32⟩
  | .hbm, ⟨13, _⟩ => ⟨S256x180x128, .f32⟩
  | .hbm, ⟨14, _⟩ => ⟨S256x180x128, .f32⟩
  | .hbm, ⟨15, _⟩ => ⟨S256x180x128, .bf16⟩
  | .hbm, ⟨16, _⟩ => ⟨S32x256, .f32⟩
  | .local _ .vmem, ⟨0, _⟩ => ⟨S1024x128, .bf16⟩
  | .local _ .vmem, ⟨1, _⟩ => ⟨S1024x128, .bf16⟩
  | .local _ .vmem, ⟨2, _⟩ => ⟨S16x180x128, .bf16⟩
  | .local _ .vmem, ⟨3, _⟩ => ⟨S16x180x128, .bf16⟩
  | .local _ .vmem, ⟨4, _⟩ => ⟨S32x128, .f32⟩
  | .local _ .vmem, ⟨5, _⟩ => ⟨S32x128, .f32⟩
  | _, _ => ⟨S32x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let arg1 : BitVec 32 := BitVec.ofNat 32 (i 1).val
  let c16_i32 : BitVec 32 := 16#32
  let v149 : BitVec 32 := Scalar.muli arg1 c16_i32
  v149
def k0_off1 (i : grid0.Coords) : Fin 2 → Nat :=
  let c0_99 : Index := 0#32
  let arg1 : BitVec 32 := BitVec.ofNat 32 (i 1).val
  let c16_i32 : BitVec 32 := 16#32
  let v149 : BitVec 32 := Scalar.muli arg1 c16_i32
  let v150 : BitVec 32 := v149
  let v151 : Index := Scalar.indexCast v150
  ![0, v151.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S1024x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S16x180x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S32x32_S32x32x1_0_1 : S32x32.BroadcastsInDim S32x32x1 (![0, 1] : Fin 2 → Fin S32x32x1.rank)
  bcast_S32x32x1_S32x32x128_0_1_2 : S32x32x1.BroadcastsInDim S32x32x128 (![0, 1, 2] : Fin 3 → Fin S32x32x128.rank)
  shapeCasts_S32x32x128_S1024x128 : S32x32x128.ShapeCasts S1024x128
  bitsLt_bf16_f32 : FTy.bits .bf16 < FTy.bits .f32
  bcast_S256x180_S256x180x1_0_1 : S256x180.BroadcastsInDim S256x180x1 (![0, 1] : Fin 2 → Fin S256x180x1.rank)
  bcast_S256x180x1_S256x180x128_0_1_2 : S256x180x1.BroadcastsInDim S256x180x128 (![0, 1, 2] : Fin 3 → Fin S256x180x128.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S16x180x128_S1x180x128_0_0_0 : ∀ a, (![0, 0, 0] : Fin 3 → Nat) a + S1x180x128.size a ≤ S16x180x128.size a
  h_S1x180x128 : 0 < S1x180x128.numel
  shapeCasts_S1x180x128_S180x128 : S1x180x128.ShapeCasts S180x128
  shapeCasts_S1024x180_S32x32x180 : S1024x180.ShapeCasts S32x32x180
  reduces_S32x32x180_S32x32 : S32x32x180.Reduces [2] S32x32
  reduces_S32x32_S32 : S32x32.Reduces [1] S32
  shapeCasts_S32_S32x1 : S32.ShapeCasts S32x1
  inb_S16x180x128_S1x180x128_1_0_0 : ∀ a, (![1, 0, 0] : Fin 3 → Nat) a + S1x180x128.size a ≤ S16x180x128.size a
  inb_S16x180x128_S1x180x128_2_0_0 : ∀ a, (![2, 0, 0] : Fin 3 → Nat) a + S1x180x128.size a ≤ S16x180x128.size a
  inb_S16x180x128_S1x180x128_3_0_0 : ∀ a, (![3, 0, 0] : Fin 3 → Nat) a + S1x180x128.size a ≤ S16x180x128.size a
  inb_S16x180x128_S1x180x128_4_0_0 : ∀ a, (![4, 0, 0] : Fin 3 → Nat) a + S1x180x128.size a ≤ S16x180x128.size a
  inb_S16x180x128_S1x180x128_5_0_0 : ∀ a, (![5, 0, 0] : Fin 3 → Nat) a + S1x180x128.size a ≤ S16x180x128.size a
  inb_S16x180x128_S1x180x128_6_0_0 : ∀ a, (![6, 0, 0] : Fin 3 → Nat) a + S1x180x128.size a ≤ S16x180x128.size a
  inb_S16x180x128_S1x180x128_7_0_0 : ∀ a, (![7, 0, 0] : Fin 3 → Nat) a + S1x180x128.size a ≤ S16x180x128.size a
  inb_S16x180x128_S1x180x128_8_0_0 : ∀ a, (![8, 0, 0] : Fin 3 → Nat) a + S1x180x128.size a ≤ S16x180x128.size a
  inb_S16x180x128_S1x180x128_9_0_0 : ∀ a, (![9, 0, 0] : Fin 3 → Nat) a + S1x180x128.size a ≤ S16x180x128.size a
  inb_S16x180x128_S1x180x128_10_0_0 : ∀ a, (![10, 0, 0] : Fin 3 → Nat) a + S1x180x128.size a ≤ S16x180x128.size a
  inb_S16x180x128_S1x180x128_11_0_0 : ∀ a, (![11, 0, 0] : Fin 3 → Nat) a + S1x180x128.size a ≤ S16x180x128.size a
  inb_S16x180x128_S1x180x128_12_0_0 : ∀ a, (![12, 0, 0] : Fin 3 → Nat) a + S1x180x128.size a ≤ S16x180x128.size a
  inb_S16x180x128_S1x180x128_13_0_0 : ∀ a, (![13, 0, 0] : Fin 3 → Nat) a + S1x180x128.size a ≤ S16x180x128.size a
  inb_S16x180x128_S1x180x128_14_0_0 : ∀ a, (![14, 0, 0] : Fin 3 → Nat) a + S1x180x128.size a ≤ S16x180x128.size a
  inb_S16x180x128_S1x180x128_15_0_0 : ∀ a, (![15, 0, 0] : Fin 3 → Nat) a + S1x180x128.size a ≤ S16x180x128.size a
  concatenates_S32x1_S32x1_S32x1_S32x1_S32x1_S32x1_S32x1_S32x1_S32x1_S32x1_S32x1_S32x1_S32x1_S32x1_S32x1_S32x1_S32x16_d1 : Shape.Concatenates [S32x1, S32x1, S32x1, S32x1, S32x1, S32x1, S32x1, S32x1, S32x1, S32x1, S32x1, S32x1, S32x1, S32x1, S32x1, S32x1] S32x16 1
  h_S32x16 : 0 < S32x16.numel
  dot_S1024x128_S180x128_S1024x180_1_1_0_0_n_n_wf : DotDims.WF S1024x128 S180x128 S1024x180 [1] [1] [0] [0] [] []
  hrank0 : 0 < grid0.rank
  k0_mult1_dvd : ∀ i : grid0.Coords, 16 ∣ (k0_mult1 i).toNat
  k0_off1_inb : ∀ i : grid0.Coords, ∀ a, (k0_off1 i) a + S32x16.size a ≤ S32x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S1024x128.size a
  hwx0_0 : ∀ i : grid0.Coords, EltTy.bits .bf16 = 32 ∨ (Rect.block (s := S1024x128) S1024x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .bf16 = 32 ∨ (Rect.block (s := S1024x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x180x128.size a ≤ S256x180x128.size a
  hwx0_2 : ∀ i : grid0.Coords, EltTy.bits .bf16 = 32 ∨ (Rect.block (s := S256x180x128) S16x180x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S32x256.size a
  hwx0_3 : ∀ i : grid0.Coords, EltTy.bits .f32 = 32 ∨ (Rect.block (s := S32x256) S32x128.size (cc0_transform_3 i) (hinb0_3 i)).WholeWords (EltTy.packing .f32)

variable [Facts₀]

def dot_S1024x128_S180x128_S1024x180_1_1_0_0_n_n : DotDims S1024x128 S180x128 S1024x180 where
  lhsContracting := [1]
  rhsContracting := [1]
  lhsNonContracting := [0]
  rhsNonContracting := [0]
  lhsBatch := []
  rhsBatch := []
  wf := dot_S1024x128_S180x128_S1024x180_1_1_0_0_n_n_wf

abbrev win0_0 : Pipeline.Window sig grid0 :=
  Pipeline.Window.ofSpec (Memref.whole main_v4) S1024x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S16x180x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S32x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x32x128 : Shape := ⟨3, ![32, 32, 128]⟩
abbrev S256x180x128 : Shape := ⟨3, ![256, 180, 128]⟩
abbrev S32x32 : Shape := ⟨2, ![32, 32]⟩
abbrev S256x180 : Shape := ⟨2, ![256, 180]⟩
abbrev S32x32x1 : Shape := ⟨3, ![32, 32, 1]⟩
abbrev S256x180x1 : Shape := ⟨3, ![256, 180, 1]⟩
abbrev S256x180x32x32 : Shape := ⟨4, ![256, 180, 32, 32]⟩
abbrev S32x256x32x180 : Shape := ⟨4, ![32, 256, 32, 180]⟩
abbrev S_ : Shape := ⟨0, ![]⟩
abbrev S32x256x32 : Shape := ⟨3, ![32, 256, 32]⟩
abbrev S32x256 : Shape := ⟨2, ![32, 256]⟩

abbrev nBuf : Space → Nat
  | .hbm => 16
  | .vmem => 0
  | .smem => 0
  | _ => 0

abbrev bufTy : (tb : Table) → Fin (tcTables nBuf tb) → BufTy
  | .hbm, ⟨0, _⟩ => ⟨S32x32x128, .f32⟩
  | .hbm, ⟨1, _⟩ => ⟨S256x180x128, .f32⟩
  | .hbm, ⟨2, _⟩ => ⟨S32x32, .f32⟩
  | .hbm, ⟨3, _⟩ => ⟨S256x180, .f32⟩
  | .hbm, ⟨4, _⟩ => ⟨S32x32x1, .f32⟩
  | .hbm, ⟨5, _⟩ => ⟨S32x32x128, .f32⟩
  | .hbm, ⟨6, _⟩ => ⟨S32x32x128, .f32⟩
  | .hbm, ⟨7, _⟩ => ⟨S256x180x1, .f32⟩
  | .hbm, ⟨8, _⟩ => ⟨S256x180x128, .f32⟩
  | .hbm, ⟨9, _⟩ => ⟨S256x180x128, .f32⟩
  | .hbm, ⟨10, _⟩ => ⟨S256x180x32x32, .f32⟩
  | .hbm, ⟨11, _⟩ => ⟨S32x256x32x180, .f32⟩
  | .hbm, ⟨12, _⟩ => ⟨S_, .f32⟩
  | .hbm, ⟨13, _⟩ => ⟨S32x256x32, .f32⟩
  | .hbm, ⟨14, _⟩ => ⟨S_, .f32⟩
  | .hbm, ⟨15, _⟩ => ⟨S32x256, .f32⟩
  | _, _ => ⟨S32x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S32x32_S32x32x1_0_1 : S32x32.BroadcastsInDim S32x32x1 (![0, 1] : Fin 2 → Fin S32x32x1.rank)
  bcast_S32x32x1_S32x32x128_0_1_2 : S32x32x1.BroadcastsInDim S32x32x128 (![0, 1, 2] : Fin 3 → Fin S32x32x128.rank)
  bcast_S256x180_S256x180x1_0_1 : S256x180.BroadcastsInDim S256x180x1 (![0, 1] : Fin 2 → Fin S256x180x1.rank)
  bcast_S256x180x1_S256x180x128_0_1_2 : S256x180x1.BroadcastsInDim S256x180x128 (![0, 1, 2] : Fin 3 → Fin S256x180x128.rank)
  transposes_S256x180x32x32_S32x256x32x180_2_0_3_1 : S256x180x32x32.Transposes [2, 0, 3, 1] S32x256x32x180
  reducesTo_S32x256x32x180_S32x256x32_d3 : S32x256x32x180.ReducesTo [3] S32x256x32
  h_S_ : 0 < S_.numel
  reducesTo_S32x256x32_S32x256_d2 : S32x256x32.ReducesTo [2] S32x256
  dot_S256x180x128_S32x32x128_S256x180x32x32_2_2_01_01_n_n_wf : DotDims.WF S256x180x128 S32x32x128 S256x180x32x32 [2] [2] [0, 1] [0, 1] [] []

variable [Facts₀]

def dot_S256x180x128_S32x32x128_S256x180x32x32_2_2_01_01_n_n : DotDims S256x180x128 S32x32x128 S256x180x32x32 where
  lhsContracting := [2]
  rhsContracting := [2]
  lhsNonContracting := [0, 1]
  rhsNonContracting := [0, 1]
  lhsBatch := []
  rhsBatch := []
  wf := dot_S256x180x128_S32x32x128_S256x180x32x32_2_2_01_01_n_n_wf

class Facts : Prop extends Facts₀ where

variable [Facts]
-- ==== Proof.KernelBody.lean ====
/-
  The body of the MaxSim kernel at one grid point (i, j), at any float instance.

  The body holds the whole query block twice (a "high" and a "low" part, 1024 = 32 queries x 32 tokens rows of 128
  features) and a block of 16 documents (180 tokens x 128 features each).  For each document it forms the
  1024 x 180 matrix of dot products (high part plus low part), takes the maximum over the 180 document tokens,
  sums over the 32 tokens of each query, and so gets one column of 32 scores.  The 16 columns, side by side, are
  stored into columns [16 j, 16 j + 16) of the 32 x 128 output block; the other columns of the block are left as
  they were found.  This module states exactly that: the body's triple, with the output block after the body
  related to the block before it ("StripRel").
-/
import proofs.«145675_j86930138071100_2_alg».proof.Proof.Gen.Kernel.Frame
import proofs.«145675_j86930138071100_2_alg».proof.Proof.Gen.Kernel.Skeleton
import Idealize.ShloMosaic.Lib.WritesUnit
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One document's column of scores: for each query q, the sum over its 32 tokens m of the maximum over the
    document's 180 tokens n of (high part + low part) of the dot product of query row 32 q + m with document row n. -/
def docCol (x0 x1 : Vec F S1024x128 .bf16) (d : Vec F S1x180x128 .bf16) : FVec F S32x1 .f32 :=
  shapeCast S32x1
    (multiReduction .add [1] S32
      (multiReduction .maximumf [2] S32x32
        (shapeCast S32x32x180
          (addf
            (matmul dot_S1024x128_S180x128_S1024x180_1_1_0_0_n_n none (shapeCast S1024x128 x0 shapeCasts_S1024x128_S1024x128)
              (shapeCast S180x128 d shapeCasts_S1x180x128_S180x128) (constant S1024x180 .f32 0x00000000#32))
            (matmul dot_S1024x128_S180x128_S1024x180_1_1_0_0_n_n none (shapeCast S1024x128 x1 shapeCasts_S1024x128_S1024x128)
              (shapeCast S180x128 d shapeCasts_S1x180x128_S180x128) (constant S1024x180 .f32 0x00000000#32)))
          shapeCasts_S1024x180_S32x32x180)
        0xFF800000#32 reduces_S32x32x180_S32x32 (.inl rfl) rfl)
      0x00000000#32 reduces_S32x32_S32 (.inl rfl) rfl)
    shapeCasts_S32_S32x1

/-- Document k of the block of 16. -/
def slab (x2 : Vec F S16x180x128 .bf16) (k : ℕ)
    (h : ∀ a, (![k, 0, 0] : Fin 3 → ℕ) a + S1x180x128.size a ≤ S16x180x128.size a) : Vec F S1x180x128 .bf16 :=
  View.ld x2 (Rect.unit (s := S16x180x128) ![k, 0, 0] S1x180x128.size h)

/-- The 32 x 16 strip the body stores: the 16 documents' columns side by side. -/
def stripPay (x0 x1 : Vec F S1024x128 .bf16) (x2 : Vec F S16x180x128 .bf16) : FVec F S32x16 .f32 :=
  concatenate S32x16 1 [⟨S32x1, docCol x0 x1 (slab x2 0 inb_S16x180x128_S1x180x128_0_0_0)⟩,
    ⟨S32x1, docCol x0 x1 (slab x2 1 inb_S16x180x128_S1x180x128_1_0_0)⟩,
    ⟨S32x1, docCol x0 x1 (slab x2 2 inb_S16x180x128_S1x180x128_2_0_0)⟩,
    ⟨S32x1, docCol x0 x1 (slab x2 3 inb_S16x180x128_S1x180x128_3_0_0)⟩,
    ⟨S32x1, docCol x0 x1 (slab x2 4 inb_S16x180x128_S1x180x128_4_0_0)⟩,
    ⟨S32x1, docCol x0 x1 (slab x2 5 inb_S16x180x128_S1x180x128_5_0_0)⟩,
    ⟨S32x1, docCol x0 x1 (slab x2 6 inb_S16x180x128_S1x180x128_6_0_0)⟩,
    ⟨S32x1, docCol x0 x1 (slab x2 7 inb_S16x180x128_S1x180x128_7_0_0)⟩,
    ⟨S32x1, docCol x0 x1 (slab x2 8 inb_S16x180x128_S1x180x128_8_0_0)⟩,
    ⟨S32x1, docCol x0 x1 (slab x2 9 inb_S16x180x128_S1x180x128_9_0_0)⟩,
    ⟨S32x1, docCol x0 x1 (slab x2 10 inb_S16x180x128_S1x180x128_10_0_0)⟩,
    ⟨S32x1, docCol x0 x1 (slab x2 11 inb_S16x180x128_S1x180x128_11_0_0)⟩,
    ⟨S32x1, docCol x0 x1 (slab x2 12 inb_S16x180x128_S1x180x128_12_0_0)⟩,
    ⟨S32x1, docCol x0 x1 (slab x2 13 inb_S16x180x128_S1x180x128_13_0_0)⟩,
    ⟨S32x1, docCol x0 x1 (slab x2 14 inb_S16x180x128_S1x180x128_14_0_0)⟩,
    ⟨S32x1, docCol x0 x1 (slab x2 15 inb_S16x180x128_S1x180x128_15_0_0)⟩]
    concatenates_S32x1_S32x1_S32x1_S32x1_S32x1_S32x1_S32x1_S32x1_S32x1_S32x1_S32x1_S32x1_S32x1_S32x1_S32x1_S32x1_S32x16_d1

/-- The printed body's arithmetic, document by document, is the uniform column function. -/
theorem pay_eq (x0 x1 : Vec F S1024x128 .bf16) (x2 : Vec F S16x180x128 .bf16) :
    k0_pay3 (k0_pay6 x0 x1 (slab x2 0 inb_S16x180x128_S1x180x128_0_0_0))
      (k0_pay7 x0 x1 (slab x2 1 inb_S16x180x128_S1x180x128_1_0_0))
      (k0_pay8 x0 x1 (slab x2 2 inb_S16x180x128_S1x180x128_2_0_0))
      (k0_pay9 (k0_pay4 x0) (k0_pay5 x1) (slab x2 3 inb_S16x180x128_S1x180x128_3_0_0))
      (k0_pay10 (k0_pay4 x0) (k0_pay5 x1) (slab x2 4 inb_S16x180x128_S1x180x128_4_0_0))
      (k0_pay11 (k0_pay4 x0) (k0_pay5 x1) (slab x2 5 inb_S16x180x128_S1x180x128_5_0_0))
      (k0_pay13 (k0_pay12 (k0_pay4 x0) (k0_pay5 x1) (slab x2 6 inb_S16x180x128_S1x180x128_6_0_0)))
      (k0_pay14 (k0_pay4 x0) (k0_pay5 x1) (slab x2 7 inb_S16x180x128_S1x180x128_7_0_0))
      (k0_pay15 (k0_pay4 x0) (k0_pay5 x1) (slab x2 8 inb_S16x180x128_S1x180x128_8_0_0))
      (k0_pay16 (k0_pay4 x0) (k0_pay5 x1) (slab x2 9 inb_S16x180x128_S1x180x128_9_0_0))
      (k0_pay18 (k0_pay17 (k0_pay4 x0) (k0_pay5 x1) (slab x2 10 inb_S16x180x128_S1x180x128_10_0_0)))
      (k0_pay19 (k0_pay4 x0) (k0_pay5 x1) (slab x2 11 inb_S16x180x128_S1x180x128_11_0_0))
      (k0_pay20 (k0_pay4 x0) (k0_pay5 x1) (slab x2 12 inb_S16x180x128_S1x180x128_12_0_0))
      (k0_pay21 (k0_pay4 x0) (k0_pay5 x1) (slab x2 13 inb_S16x180x128_S1x180x128_13_0_0))
      (k0_pay1 (k0_pay4 x0) (k0_pay5 x1) (k0_pay22 (slab x2 14 inb_S16x180x128_S1x180x128_14_0_0)) (constant S1024x180 .f32 0x00000000#32))
      (k0_pay2 (k0_pay4 x0) (k0_pay5 x1) (slab x2 15 inb_S16x180x128_S1x180x128_15_0_0))
    = stripPay x0 x1 x2 := rfl

/-- What the strip store does to the output block: columns [o, o + 16) now hold the strip P, every other column is
    as it was (Y before, X after). -/
def StripRel (o : ℕ) (P : Vec F S32x16 .f32) (Y X : Vec F S32x128 .f32) : Prop :=
  (∀ (x : S32x16.Idx) (y : S32x128.Idx), (y 0).val = (x 0).val → (y 1).val = o + (x 1).val → X y = P x)
  ∧ (∀ y : S32x128.Idx, ((y 1).val < o ∨ o + 16 ≤ (y 1).val) → X y = Y y)

private theorem zero2 : (![0, 0] : Fin 2 → ℕ) = fun _ => 0 := by
  funext a; match a with | ⟨0, _⟩ => rfl | ⟨1, _⟩ => rfl

set_option maxHeartbeats 1000000 in
/-- The body's triple: the three input blocks are read and handed back unchanged; the output block, handed over at
    any contents x3, comes back in the relation StripRel to x3, at column offset 16 j. -/
theorem body_run (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S16x180x128 .bf16) (harg4 : arg4.IsWhole) (arg5 : Memref sig .tc .vmem S32x128 .f32) (harg5 : arg5.IsWhole)
    (x0 : Vec F S1024x128 .bf16) (x1 : Vec F S1024x128 .bf16) (x2 : Vec F S16x180x128 .bf16) (x3 : Vec F S32x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (iprop(owns (c : Thread nD τ) arg2 fullShare x0 ∗ owns (c : Thread nD τ) arg3 fullShare x1 ∗ owns (c : Thread nD τ) arg4 fullShare x2
                ∗ (∃ X, ⌜StripRel (16 * (i 1).val) (stripPay x0 x1 x2) x3 X⌝ ∗ owns (c : Thread nD τ) arg5 fullShare X)) -∗ K ⟨⟩))
          ⊢ wp frame (wpE (defs₀ (F := F)) Variants.none c none) E (cc0__maxsim_kernel i arg2 harg2 arg3 harg3 arg4 harg4 arg5 harg5) K := by
    intro E K
    simp only [cc0__maxsim_kernel_eq_skeleton]; unfold cc0__maxsim_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _
    isplitr; swap
    · iexists _; isplitr; swap; · iexact H3
      ipureintro; rfl
    ipureintro
    refine ⟨fun x y h0 h1 => ?_, fun y hy => ?_⟩
    · refine (View.read_writes_cons_unit_of_mem _ _ _ _ _ y x (k0_off1_eq i)
        (Fin.forall_fin_two.mpr ⟨by rw [h0]; exact (Nat.zero_add _).symm, h1⟩)).trans ?_
      sl_unfold_run_names
      simp only [View.readAt_eq_ld, harg2.read_unread, harg3.read_unread, harg4.read_unread,
        View.ld_unit_zero (S := S1024x128) zero2]
      exact congrFun (pay_eq x0 x1 x2) x
    · refine (View.read_writes_cons_unit_of_not_mem _ _ _ _ _ y (k0_off1_eq i) (1 : Fin 2) ?_).trans ?_
      · exact hy
      · rw [View.writes_nil, harg5.read_unread]

end Cert.Kernel.Body

end
-- ==== Proof.KernelData.lean ====
/-
  The pipeline's proof data for the MaxSim kernel, at any float instance, and its frame run.

  The three input windows (the two query parts, resident; the block of 16 documents, fetched at every point) are found
  at their blocks of the arrays at every point and left as found.  The output window's block (32 x 128, one per value of
  the outer grid coordinate) is visited by the 8 points of the inner coordinate j in turn; point (i, j) overwrites
  columns [16 j, 16 j + 16) with its strip and leaves the rest, so what the staging buffer holds after a point is
  stated RELATIVE to what it held before (StripRel), and the block is written back after j = 7.
-/
import proofs.«145675_j86930138071100_2_alg».proof.Proof.KernelBody

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Exact data for the inputs: each input's buffer holds its block after the body, as before it. (The output's entry is
    a placeholder: its relation is given separately below.) -/
def dat0 (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

/-- The strip point t stores: the 16 score columns of the point's 16 documents against all queries. -/
def stripAt (c : Dev nD) (t : Fin cfg0.N) : Vec F S32x16 .f32 :=
  stripPay (iblk m c 0 t) (iblk m c 1 t) (iblk m c 2 t)

/-- The output buffer after point t against before it: columns [16 j, 16 j + 16) are the point's strip. -/
def outRel (c : Dev nD) (t : Fin cfg0.N) (Y X : (cfg0.win 3).block.Idx → Elt F (cfg0.win 3).elt) : Prop :=
  StripRel (16 * (grid0.coords t 1).val) (stripAt m c t) Y X

def ovr (c : Dev nD) : (w : Fin cfg0.W) → Option (Fin cfg0.N → (Y X : (cfg0.win w).block.Idx → Elt F (cfg0.win w).elt) → Prop)
  | ⟨0, _⟩ => none
  | ⟨1, _⟩ => none
  | ⟨2, _⟩ => none
  | ⟨3, _⟩ => some (outRel m c)

/-- The relational proof data. -/
def rdat (c : Dev nD) : Pipeline.RDat τ (Elt F) Unit ℕ (UR sig nD τ) ℕ cfg0 c := (dat0 m c).toR.override (ovr m c)

theorem rdat_after3 (c : Dev nD) : (rdat m c).after 3 = outRel m c :=
  (dat0 m c).toR.override_after_of_eq_some (ovr := ovr m c) (w := 3) rfl

/-! ## The inputs are found at their blocks, and left there -/

theorem found0 (c : Dev nD) (t : Fin cfg0.N) (Y) (h : (rdat m c).Finds 0 t Y) : Y = iblk m c 0 t := by
  obtain ⟨d, hd⟩ := (dat0 m c).toR_finds 0 t Y (((dat0 m c).toR.override_finds (ovr := ovr m c) (w := 0) rfl t Y).mp h)
  rw [hd]; exact before0_0_of m (dat0 m c) rfl (fun _ => rfl) t d
theorem found1 (c : Dev nD) (t : Fin cfg0.N) (Y) (h : (rdat m c).Finds 1 t Y) : Y = iblk m c 1 t := by
  obtain ⟨d, hd⟩ := (dat0 m c).toR_finds 1 t Y (((dat0 m c).toR.override_finds (ovr := ovr m c) (w := 1) rfl t Y).mp h)
  rw [hd]; exact before0_1_of m (dat0 m c) rfl (fun _ => rfl) t d
theorem found2 (c : Dev nD) (t : Fin cfg0.N) (Y) (h : (rdat m c).Finds 2 t Y) : Y = iblk m c 2 t := by
  obtain ⟨d, hd⟩ := (dat0 m c).toR_finds 2 t Y (((dat0 m c).toR.override_finds (ovr := ovr m c) (w := 2) rfl t Y).mp h)
  rw [hd]; exact before0_2_of m (dat0 m c) rfl (fun _ => rfl) t d

theorem left0 (c : Dev nD) (t : Fin cfg0.N) (Y) : (rdat m c).after 0 t Y (iblk m c 0 t) := by
  rw [show (rdat m c).after 0 = (dat0 m c).toR.after 0 from (dat0 m c).toR.override_after_of_eq_none (ovr := ovr m c) (w := 0) rfl]
  exact (rfl : iblk m c 0 t = iblk m c 0 t)
theorem left1 (c : Dev nD) (t : Fin cfg0.N) (Y) : (rdat m c).after 1 t Y (iblk m c 1 t) := by
  rw [show (rdat m c).after 1 = (dat0 m c).toR.after 1 from (dat0 m c).toR.override_after_of_eq_none (ovr := ovr m c) (w := 1) rfl]
  exact (rfl : iblk m c 1 t = iblk m c 1 t)
theorem left2 (c : Dev nD) (t : Fin cfg0.N) (Y) : (rdat m c).after 2 t Y (iblk m c 2 t) := by
  rw [show (rdat m c).after 2 = (dat0 m c).toR.after 2 from (dat0 m c).toR.override_after_of_eq_none (ovr := ovr m c) (w := 2) rfl]
  exact (rfl : iblk m c 2 t = iblk m c 2 t)

/-! ## The body obligation -/

theorem body_obligation (c : Dev nD) : (rdat m c).BodyObligation (defs₀ (F := F)) Variants.none () Set.univ := fun t Y hY => by
  have h0 := found0 m c t (Y 0) (hY 0)
  have h1 := found1 m c t (Y 1) (hY 1)
  have h2 := found2 m c t (Y 2) (hY 2)
  rw [bigSep_W0, bigSep_W0]
  rw [h0, h1, h2]
  rw [show (rdat m c).Φ t.succ = (rdat m c).Φ t.castSucc from rfl,
    show (rdat m c).owesAt () t.succ = (rdat m c).owesAt () t.castSucc from rfl]
  iintro ⟨HΦ, Ho, H0, H1, H2, H3⟩
  iapply ((body_run c (grid0.coords t) _ _ _ _ _ _ _ _ (iblk m c 0 t) (iblk m c 1 t) (iblk m c 2 t) (Y 3)) Set.univ _)
  isplitl [H0]; · iexact H0
  isplitl [H1]; · iexact H1
  isplitl [H2]; · iexact H2
  isplitl [H3]; · iexact H3
  iintro ⟨H0, H1, H2, ⟨%X, %hX, H3⟩⟩
  isplitl [HΦ]; · iexact HΦ
  isplitl [Ho]; · iexact Ho
  isplitl [H0]
  · iexists _; isplitr; · ipureintro; exact left0 m c t _
    iexact H0
  isplitl [H1]
  · iexists _; isplitr; · ipureintro; exact left1 m c t _
    iexact H1
  isplitl [H2]
  · iexists _; isplitr; · ipureintro; exact left2 m c t _
    iexact H2
  iexists X; isplitr
  · ipureintro; rw [rdat_after3]; exact hX
  iexact H3

/-! ## The run and the frame -/

set_option backward.isDefEq.respectTransparency.types false in
/-- Every weakly fair execution of @main terminates; every windowed array then holds contents the proof data allows
    after all write-backs, every other buffer what it held when the region was entered. -/
theorem run_main : θ_run defs (onTc (τ := τ) (main (F := F))) (s₀ m ρ) (Pipeline.RDat.FramePost (cfgs 0) (fun c => rdat m c) (V m)) :=
  Pipeline.RDat.θ_run_frame cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := fun _ _ => rfl) (hΦ := fun _ _ => rfl)

/-- The frame: the run terminates and the four argument arrays end as launched (none of them is a windowed array, and
    no host operation before the region writes them). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.Kernel.Body

end
-- ==== Proof.KernelIdealBody.lean ====
/-
  The body of the MaxSim kernel at one grid point (i, j), at any float instance.

  The body holds the whole query block twice (a "high" and a "low" part, 1024 = 32 queries x 32 tokens rows of 128
  features) and a block of 16 documents (180 tokens x 128 features each).  For each document it forms the
  1024 x 180 matrix of dot products (high part plus low part), takes the maximum over the 180 document tokens,
  sums over the 32 tokens of each query, and so gets one column of 32 scores.  The 16 columns, side by side, are
  stored into columns [16 j, 16 j + 16) of the 32 x 128 output block; the other columns of the block are left as
  they were found.  This module states exactly that: the body's triple, with the output block after the body
  related to the block before it ("StripRel").
-/
import proofs.«145675_j86930138071100_2_alg».proof.Proof.Gen.KernelIdeal.Frame
import proofs.«145675_j86930138071100_2_alg».proof.Proof.Gen.KernelIdeal.Skeleton
import Idealize.ShloMosaic.Lib.WritesUnit
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One document's column of scores: for each query q, the sum over its 32 tokens m of the maximum over the
    document's 180 tokens n of (high part + low part) of the dot product of query row 32 q + m with document row n. -/
def docCol (x0 x1 : Vec F S1024x128 .bf16) (d : Vec F S1x180x128 .bf16) : FVec F S32x1 .f32 :=
  shapeCast S32x1
    (multiReduction .add [1] S32
      (multiReduction .maximumf [2] S32x32
        (shapeCast S32x32x180
          (addf
            (matmul dot_S1024x128_S180x128_S1024x180_1_1_0_0_n_n none (shapeCast S1024x128 x0 shapeCasts_S1024x128_S1024x128)
              (shapeCast S180x128 d shapeCasts_S1x180x128_S180x128) (constant S1024x180 .f32 0x00000000#32))
            (matmul dot_S1024x128_S180x128_S1024x180_1_1_0_0_n_n none (shapeCast S1024x128 x1 shapeCasts_S1024x128_S1024x128)
              (shapeCast S180x128 d shapeCasts_S1x180x128_S180x128) (constant S1024x180 .f32 0x00000000#32)))
          shapeCasts_S1024x180_S32x32x180)
        0xFF800000#32 reduces_S32x32x180_S32x32 (.inl rfl) rfl)
      0x00000000#32 reduces_S32x32_S32 (.inl rfl) rfl)
    shapeCasts_S32_S32x1

/-- Document k of the block of 16. -/
def slab (x2 : Vec F S16x180x128 .bf16) (k : ℕ)
    (h : ∀ a, (![k, 0, 0] : Fin 3 → ℕ) a + S1x180x128.size a ≤ S16x180x128.size a) : Vec F S1x180x128 .bf16 :=
  View.ld x2 (Rect.unit (s := S16x180x128) ![k, 0, 0] S1x180x128.size h)

/-- The 32 x 16 strip the body stores: the 16 documents' columns side by side. -/
def stripPay (x0 x1 : Vec F S1024x128 .bf16) (x2 : Vec F S16x180x128 .bf16) : FVec F S32x16 .f32 :=
  concatenate S32x16 1 [⟨S32x1, docCol x0 x1 (slab x2 0 inb_S16x180x128_S1x180x128_0_0_0)⟩,
    ⟨S32x1, docCol x0 x1 (slab x2 1 inb_S16x180x128_S1x180x128_1_0_0)⟩,
    ⟨S32x1, docCol x0 x1 (slab x2 2 inb_S16x180x128_S1x180x128_2_0_0)⟩,
    ⟨S32x1, docCol x0 x1 (slab x2 3 inb_S16x180x128_S1x180x128_3_0_0)⟩,
    ⟨S32x1, docCol x0 x1 (slab x2 4 inb_S16x180x128_S1x180x128_4_0_0)⟩,
    ⟨S32x1, docCol x0 x1 (slab x2 5 inb_S16x180x128_S1x180x128_5_0_0)⟩,
    ⟨S32x1, docCol x0 x1 (slab x2 6 inb_S16x180x128_S1x180x128_6_0_0)⟩,
    ⟨S32x1, docCol x0 x1 (slab x2 7 inb_S16x180x128_S1x180x128_7_0_0)⟩,
    ⟨S32x1, docCol x0 x1 (slab x2 8 inb_S16x180x128_S1x180x128_8_0_0)⟩,
    ⟨S32x1, docCol x0 x1 (slab x2 9 inb_S16x180x128_S1x180x128_9_0_0)⟩,
    ⟨S32x1, docCol x0 x1 (slab x2 10 inb_S16x180x128_S1x180x128_10_0_0)⟩,
    ⟨S32x1, docCol x0 x1 (slab x2 11 inb_S16x180x128_S1x180x128_11_0_0)⟩,
    ⟨S32x1, docCol x0 x1 (slab x2 12 inb_S16x180x128_S1x180x128_12_0_0)⟩,
    ⟨S32x1, docCol x0 x1 (slab x2 13 inb_S16x180x128_S1x180x128_13_0_0)⟩,
    ⟨S32x1, docCol x0 x1 (slab x2 14 inb_S16x180x128_S1x180x128_14_0_0)⟩,
    ⟨S32x1, docCol x0 x1 (slab x2 15 inb_S16x180x128_S1x180x128_15_0_0)⟩]
    concatenates_S32x1_S32x1_S32x1_S32x1_S32x1_S32x1_S32x1_S32x1_S32x1_S32x1_S32x1_S32x1_S32x1_S32x1_S32x1_S32x1_S32x16_d1

/-- The printed body's arithmetic, document by document, is the uniform column function. -/
theorem pay_eq (x0 x1 : Vec F S1024x128 .bf16) (x2 : Vec F S16x180x128 .bf16) :
    k0_pay3 (k0_pay6 x0 x1 (slab x2 0 inb_S16x180x128_S1x180x128_0_0_0))
      (k0_pay7 x0 x1 (slab x2 1 inb_S16x180x128_S1x180x128_1_0_0))
      (k0_pay8 x0 x1 (slab x2 2 inb_S16x180x128_S1x180x128_2_0_0))
      (k0_pay9 (k0_pay4 x0) (k0_pay5 x1) (slab x2 3 inb_S16x180x128_S1x180x128_3_0_0))
      (k0_pay10 (k0_pay4 x0) (k0_pay5 x1) (slab x2 4 inb_S16x180x128_S1x180x128_4_0_0))
      (k0_pay11 (k0_pay4 x0) (k0_pay5 x1) (slab x2 5 inb_S16x180x128_S1x180x128_5_0_0))
      (k0_pay13 (k0_pay12 (k0_pay4 x0) (k0_pay5 x1) (slab x2 6 inb_S16x180x128_S1x180x128_6_0_0)))
      (k0_pay14 (k0_pay4 x0) (k0_pay5 x1) (slab x2 7 inb_S16x180x128_S1x180x128_7_0_0))
      (k0_pay15 (k0_pay4 x0) (k0_pay5 x1) (slab x2 8 inb_S16x180x128_S1x180x128_8_0_0))
      (k0_pay16 (k0_pay4 x0) (k0_pay5 x1) (slab x2 9 inb_S16x180x128_S1x180x128_9_0_0))
      (k0_pay18 (k0_pay17 (k0_pay4 x0) (k0_pay5 x1) (slab x2 10 inb_S16x180x128_S1x180x128_10_0_0)))
      (k0_pay19 (k0_pay4 x0) (k0_pay5 x1) (slab x2 11 inb_S16x180x128_S1x180x128_11_0_0))
      (k0_pay20 (k0_pay4 x0) (k0_pay5 x1) (slab x2 12 inb_S16x180x128_S1x180x128_12_0_0))
      (k0_pay21 (k0_pay4 x0) (k0_pay5 x1) (slab x2 13 inb_S16x180x128_S1x180x128_13_0_0))
      (k0_pay1 (k0_pay4 x0) (k0_pay5 x1) (k0_pay22 (slab x2 14 inb_S16x180x128_S1x180x128_14_0_0)) (constant S1024x180 .f32 0x00000000#32))
      (k0_pay2 (k0_pay4 x0) (k0_pay5 x1) (slab x2 15 inb_S16x180x128_S1x180x128_15_0_0))
    = stripPay x0 x1 x2 := rfl

/-- What the strip store does to the output block: columns [o, o + 16) now hold the strip P, every other column is
    as it was (Y before, X after). -/
def StripRel (o : ℕ) (P : Vec F S32x16 .f32) (Y X : Vec F S32x128 .f32) : Prop :=
  (∀ (x : S32x16.Idx) (y : S32x128.Idx), (y 0).val = (x 0).val → (y 1).val = o + (x 1).val → X y = P x)
  ∧ (∀ y : S32x128.Idx, ((y 1).val < o ∨ o + 16 ≤ (y 1).val) → X y = Y y)

private theorem zero2 : (![0, 0] : Fin 2 → ℕ) = fun _ => 0 := by
  funext a; match a with | ⟨0, _⟩ => rfl | ⟨1, _⟩ => rfl

set_option maxHeartbeats 1000000 in
/-- The body's triple: the three input blocks are read and handed back unchanged; the output block, handed over at
    any contents x3, comes back in the relation StripRel to x3, at column offset 16 j. -/
theorem body_run (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S16x180x128 .bf16) (harg4 : arg4.IsWhole) (arg5 : Memref sig .tc .vmem S32x128 .f32) (harg5 : arg5.IsWhole)
    (x0 : Vec F S1024x128 .bf16) (x1 : Vec F S1024x128 .bf16) (x2 : Vec F S16x180x128 .bf16) (x3 : Vec F S32x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (iprop(owns (c : Thread nD τ) arg2 fullShare x0 ∗ owns (c : Thread nD τ) arg3 fullShare x1 ∗ owns (c : Thread nD τ) arg4 fullShare x2
                ∗ (∃ X, ⌜StripRel (16 * (i 1).val) (stripPay x0 x1 x2) x3 X⌝ ∗ owns (c : Thread nD τ) arg5 fullShare X)) -∗ K ⟨⟩))
          ⊢ wp frame (wpE (defs₀ (F := F)) Variants.none c none) E (cc0__maxsim_kernel i arg2 harg2 arg3 harg3 arg4 harg4 arg5 harg5) K := by
    intro E K
    simp only [cc0__maxsim_kernel_eq_skeleton]; unfold cc0__maxsim_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _
    isplitr; swap
    · iexists _; isplitr; swap; · iexact H3
      ipureintro; rfl
    ipureintro
    refine ⟨fun x y h0 h1 => ?_, fun y hy => ?_⟩
    · refine (View.read_writes_cons_unit_of_mem _ _ _ _ _ y x (k0_off1_eq i)
        (Fin.forall_fin_two.mpr ⟨by rw [h0]; exact (Nat.zero_add _).symm, h1⟩)).trans ?_
      sl_unfold_run_names
      simp only [View.readAt_eq_ld, harg2.read_unread, harg3.read_unread, harg4.read_unread,
        View.ld_unit_zero (S := S1024x128) zero2]
      exact congrFun (pay_eq x0 x1 x2) x
    · refine (View.read_writes_cons_unit_of_not_mem _ _ _ _ _ y (k0_off1_eq i) (1 : Fin 2) ?_).trans ?_
      · exact hy
      · rw [View.writes_nil, harg5.read_unread]

end Cert.KernelIdeal.Body

end
-- ==== Proof.KernelIdealData.lean ====
/-
  The pipeline's proof data for the MaxSim kernel, at any float instance, and its frame run.

  The three input windows (the two query parts, resident; the block of 16 documents, fetched at every point) are found
  at their blocks of the arrays at every point and left as found.  The output window's block (32 x 128, one per value of
  the outer grid coordinate) is visited by the 8 points of the inner coordinate j in turn; point (i, j) overwrites
  columns [16 j, 16 j + 16) with its strip and leaves the rest, so what the staging buffer holds after a point is
  stated RELATIVE to what it held before (StripRel), and the block is written back after j = 7.
-/
import proofs.«145675_j86930138071100_2_alg».proof.Proof.KernelIdealBody

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Exact data for the inputs: each input's buffer holds its block after the body, as before it. (The output's entry is
    a placeholder: its relation is given separately below.) -/
def dat0 (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

/-- The strip point t stores: the 16 score columns of the point's 16 documents against all queries. -/
def stripAt (c : Dev nD) (t : Fin cfg0.N) : Vec F S32x16 .f32 :=
  stripPay (iblk m c 0 t) (iblk m c 1 t) (iblk m c 2 t)

/-- The output buffer after point t against before it: columns [16 j, 16 j + 16) are the point's strip. -/
def outRel (c : Dev nD) (t : Fin cfg0.N) (Y X : (cfg0.win 3).block.Idx → Elt F (cfg0.win 3).elt) : Prop :=
  StripRel (16 * (grid0.coords t 1).val) (stripAt m c t) Y X

def ovr (c : Dev nD) : (w : Fin cfg0.W) → Option (Fin cfg0.N → (Y X : (cfg0.win w).block.Idx → Elt F (cfg0.win w).elt) → Prop)
  | ⟨0, _⟩ => none
  | ⟨1, _⟩ => none
  | ⟨2, _⟩ => none
  | ⟨3, _⟩ => some (outRel m c)

/-- The relational proof data. -/
def rdat (c : Dev nD) : Pipeline.RDat τ (Elt F) Unit ℕ (UR sig nD τ) ℕ cfg0 c := (dat0 m c).toR.override (ovr m c)

theorem rdat_after3 (c : Dev nD) : (rdat m c).after 3 = outRel m c :=
  (dat0 m c).toR.override_after_of_eq_some (ovr := ovr m c) (w := 3) rfl

/-! ## The inputs are found at their blocks, and left there -/

theorem found0 (c : Dev nD) (t : Fin cfg0.N) (Y) (h : (rdat m c).Finds 0 t Y) : Y = iblk m c 0 t := by
  obtain ⟨d, hd⟩ := (dat0 m c).toR_finds 0 t Y (((dat0 m c).toR.override_finds (ovr := ovr m c) (w := 0) rfl t Y).mp h)
  rw [hd]; exact before0_0_of m (dat0 m c) rfl (fun _ => rfl) t d
theorem found1 (c : Dev nD) (t : Fin cfg0.N) (Y) (h : (rdat m c).Finds 1 t Y) : Y = iblk m c 1 t := by
  obtain ⟨d, hd⟩ := (dat0 m c).toR_finds 1 t Y (((dat0 m c).toR.override_finds (ovr := ovr m c) (w := 1) rfl t Y).mp h)
  rw [hd]; exact before0_1_of m (dat0 m c) rfl (fun _ => rfl) t d
theorem found2 (c : Dev nD) (t : Fin cfg0.N) (Y) (h : (rdat m c).Finds 2 t Y) : Y = iblk m c 2 t := by
  obtain ⟨d, hd⟩ := (dat0 m c).toR_finds 2 t Y (((dat0 m c).toR.override_finds (ovr := ovr m c) (w := 2) rfl t Y).mp h)
  rw [hd]; exact before0_2_of m (dat0 m c) rfl (fun _ => rfl) t d

theorem left0 (c : Dev nD) (t : Fin cfg0.N) (Y) : (rdat m c).after 0 t Y (iblk m c 0 t) := by
  rw [show (rdat m c).after 0 = (dat0 m c).toR.after 0 from (dat0 m c).toR.override_after_of_eq_none (ovr := ovr m c) (w := 0) rfl]
  exact (rfl : iblk m c 0 t = iblk m c 0 t)
theorem left1 (c : Dev nD) (t : Fin cfg0.N) (Y) : (rdat m c).after 1 t Y (iblk m c 1 t) := by
  rw [show (rdat m c).after 1 = (dat0 m c).toR.after 1 from (dat0 m c).toR.override_after_of_eq_none (ovr := ovr m c) (w := 1) rfl]
  exact (rfl : iblk m c 1 t = iblk m c 1 t)
theorem left2 (c : Dev nD) (t : Fin cfg0.N) (Y) : (rdat m c).after 2 t Y (iblk m c 2 t) := by
  rw [show (rdat m c).after 2 = (dat0 m c).toR.after 2 from (dat0 m c).toR.override_after_of_eq_none (ovr := ovr m c) (w := 2) rfl]
  exact (rfl : iblk m c 2 t = iblk m c 2 t)

/-! ## The body obligation -/

theorem body_obligation (c : Dev nD) : (rdat m c).BodyObligation (defs₀ (F := F)) Variants.none () Set.univ := fun t Y hY => by
  have h0 := found0 m c t (Y 0) (hY 0)
  have h1 := found1 m c t (Y 1) (hY 1)
  have h2 := found2 m c t (Y 2) (hY 2)
  rw [bigSep_W0, bigSep_W0]
  rw [h0, h1, h2]
  rw [show (rdat m c).Φ t.succ = (rdat m c).Φ t.castSucc from rfl,
    show (rdat m c).owesAt () t.succ = (rdat m c).owesAt () t.castSucc from rfl]
  iintro ⟨HΦ, Ho, H0, H1, H2, H3⟩
  iapply ((body_run c (grid0.coords t) _ _ _ _ _ _ _ _ (iblk m c 0 t) (iblk m c 1 t) (iblk m c 2 t) (Y 3)) Set.univ _)
  isplitl [H0]; · iexact H0
  isplitl [H1]; · iexact H1
  isplitl [H2]; · iexact H2
  isplitl [H3]; · iexact H3
  iintro ⟨H0, H1, H2, ⟨%X, %hX, H3⟩⟩
  isplitl [HΦ]; · iexact HΦ
  isplitl [Ho]; · iexact Ho
  isplitl [H0]
  · iexists _; isplitr; · ipureintro; exact left0 m c t _
    iexact H0
  isplitl [H1]
  · iexists _; isplitr; · ipureintro; exact left1 m c t _
    iexact H1
  isplitl [H2]
  · iexists _; isplitr; · ipureintro; exact left2 m c t _
    iexact H2
  iexists X; isplitr
  · ipureintro; rw [rdat_after3]; exact hX
  iexact H3

/-! ## The run and the frame -/

set_option backward.isDefEq.respectTransparency.types false in
/-- Every weakly fair execution of @main terminates; every windowed array then holds contents the proof data allows
    after all write-backs, every other buffer what it held when the region was entered. -/
theorem run_main : θ_run defs (onTc (τ := τ) (main (F := F))) (s₀ m ρ) (Pipeline.RDat.FramePost (cfgs 0) (fun c => rdat m c) (V m)) :=
  Pipeline.RDat.θ_run_frame cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := fun _ _ => rfl) (hΦ := fun _ _ => rfl)

/-- The frame: the run terminates and the four argument arrays end as launched (none of them is a windowed array, and
    no host operation before the region writes them). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.KernelIdeal.Body

end
-- ==== Proof.LibRDatCover.lean ====
/-
  A general lemma about relational pipeline proof data (no kernel in it).

  For relational proof data the library says what a windowed array MAY hold after the write-backs below a point
  (`RDat.ArrAt`): its entry contents, overwritten at each flushing point by the moved part of SOME contents the body may
  have left in the staging buffer there (`RDat.Leaves`).  When everything the body may leave at a flushing point is, after
  the cut, the point's block of ONE array `G` — the same `G` for every flushing point —, an index that some flushing
  point's block covers reads `G` after the write-backs (later points that cover it again write the same value, earlier
  ones are overwritten); and when the flushing points' blocks cover the whole array, the array is `G`.
  This is the relational counterpart of the exact data's `Dat.arrAt_apply_of_mem` / `Dat.arrAt_eq_of_cover`.
-/
import Idealize.ShloMosaic.Lib.Pipeline.Value

noncomputable section

namespace Idealize.ShloMosaic.Pipeline

open Idealize.SL Idealize.SL.Sem Idealize.SL.RA

variable {nD : Nat} {τ : Topo} {sig : RefSig} {Val : EltTy → Type}
variable {Ix : Type} [DecidableEq Ix] {Name : Type} [DecidableEq Name] {U : Type} [URA U] {Lvl : Type}
variable {Λ₀ : SL.Sem.Labels} {cfg : Cfg sig Λ₀} {c : Dev nD} (rd : RDat τ Val Ix Name U Lvl cfg c)

/-- If what every flushing point may leave is, cut to the array, its block of `G`, then any contents the array may hold
    after the write-backs below `n` agree with `G` at every index in the block of a flushing point below `n`. -/
theorem RDat.arrAt_apply_of_mem (w : Fin cfg.W) (G : Buf Val ((cfg.win w).arr.view.loc (c.tc : Thread nD τ)))
    (hG : ∀ t, (cfg.win w).flush t = true → ∀ X, rd.Leaves w t X →
      (cfg.win w).cut (cfg.grid.coords t) X = ((cfg.win w).blk t).view.read Val G) :
    ∀ (n : Nat) (F : Buf Val ((cfg.win w).arr.view.loc (c.tc : Thread nD τ))), rd.ArrAt w n F →
      ∀ (t : Fin cfg.N) (i : ((cfg.win w).arr.view.loc (c.tc : Thread nD τ)).2.ty.Idx),
        t.val < n → (cfg.win w).flush t = true → i ∈ ((cfg.win w).blk t).view.set → F i = G i
  | 0, _, _, _, _, ht, _, _ => absurd ht (Nat.not_lt_zero _)
  | n + 1, F, hF, t, i, ht, hf, hi => by
    by_cases hn : n < cfg.N
    swap
    · -- past the grid nothing changes, and `t` is below `n`
      have e : rd.ArrAt w (n + 1) = rd.ArrAt w n :=
        (rd.ArrAt_stable w (n + 1) (by omega)).trans (rd.ArrAt_stable w n (by omega)).symm
      rw [e] at hF
      exact RDat.arrAt_apply_of_mem w G hG n F hF t i (by have := t.isLt; omega) hf hi
    have hs := rd.ArrAt_succ w ⟨n, hn⟩
    dsimp only at hs
    rw [hs] at hF
    by_cases hfn : (cfg.win w).flush ⟨n, hn⟩ = true
    · rw [if_pos hfn] at hF
      obtain ⟨G₀, X, hG₀, hX, rfl⟩ := hF
      rw [hG _ hfn X hX, View.write_read_eq_piecewise]
      by_cases hin : i ∈ ((cfg.win w).blk ⟨n, hn⟩).view.setOn Finset.univ
      · rw [Finset.piecewise_eq_of_mem _ _ _ hin]
      · rw [Finset.piecewise_eq_of_notMem _ _ _ hin]
        have htn : t.val ≠ n := fun e => hin (by
          rw [View.setOn_univ]; have : t = ⟨n, hn⟩ := Fin.ext e; exact this ▸ hi)
        exact RDat.arrAt_apply_of_mem w G hG n G₀ hG₀ t i (by omega) hf hi
    · rw [if_neg hfn] at hF
      have htn : t.val ≠ n := fun e => hfn (by have : t = ⟨n, hn⟩ := Fin.ext e; exact this ▸ hf)
      exact RDat.arrAt_apply_of_mem w G hG n F hF t i (by omega) hf hi

/-- When the flushing points' blocks cover the array, any contents it may hold after every write-back are `G`. -/
theorem RDat.arrAt_eq_of_cover (w : Fin cfg.W) (G : Buf Val ((cfg.win w).arr.view.loc (c.tc : Thread nD τ)))
    (hG : ∀ t, (cfg.win w).flush t = true → ∀ X, rd.Leaves w t X →
      (cfg.win w).cut (cfg.grid.coords t) X = ((cfg.win w).blk t).view.read Val G)
    (hcover : ∀ i : ((cfg.win w).arr.view.loc (c.tc : Thread nD τ)).2.ty.Idx,
      ∃ t : Fin cfg.N, (cfg.win w).flush t = true ∧ i ∈ ((cfg.win w).blk t).view.set)
    (F : Buf Val ((cfg.win w).arr.view.loc (c.tc : Thread nD τ))) (hF : rd.ArrAt w cfg.N F) : F = G :=
  funext fun i => by
    obtain ⟨t, hf, hi⟩ := hcover i
    exact rd.arrAt_apply_of_mem w G hG cfg.N F hF t i t.isLt hf hi

end Idealize.ShloMosaic.Pipeline

end
-- ==== Proof.KernelIdealStrips.lean ====
/-
  What the output array holds after the run, in terms of the strips the points store (any float instance).

  Point t = 8 i + j of the grid (i the outer, j the inner coordinate) stores its strip into columns [16 j, 16 j + 16) of
  the staging block of output block i and keeps the other columns.  So after point t the staging buffer holds, in
  columns [16 j', 16 j' + 16) for every j' <= j, the strip of point 8 i + j' (induction on j: a later point does not touch
  an earlier point's columns).  The block is written back after j = 7, when all 8 strips are in place; block i is
  columns [128 i, 128 i + 128) of the 32 x 256 array, so array column d holds column d % 16 of the strip of point d / 16.
  The two blocks cover the array.
-/
import proofs.«145675_j86930138071100_2_alg».proof.Proof.KernelIdealData
import proofs.«145675_j86930138071100_2_alg».proof.Proof.LibRDatCover
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

variable (m : (ℓ : Loc nD τ sig) → Buf (Elt F) ℓ) (ρ : Dev nD → PrngReg)

/-! ## The schedule's facts, decided over the 16 points -/

theorem lt16 (t : Fin cfg0.N) : t.val < 16 := by
  have h : t.val < grid0.N := t.isLt
  rw [N_0] at h; exact h

theorem fetch0_3 : ∀ t : Fin cfg0.N, (cfg0.win 3).fetch t = false :=
  (by decide +kernel : ∀ t : Fin grid0.N, win0_3.fetch t = false)

theorem coord1 : ∀ t : Fin cfg0.N, (grid0.coords t 1).val = t.val % 8 :=
  (by decide +kernel : ∀ t : Fin grid0.N, (grid0.coords t 1).val = t.val % 8)

theorem idx3 : ∀ t : Fin cfg0.N, win0_3.index t (0 : Fin 2) = 0 ∧ win0_3.index t (1 : Fin 2) = t.val / 8 :=
  (by decide +kernel : ∀ t : Fin grid0.N, win0_3.index t (0 : Fin 2) = 0 ∧ win0_3.index t (1 : Fin 2) = t.val / 8)

theorem stripAt_congr (c : Dev nD) (t t' : Fin cfg0.N) (x x' : S32x16.Idx) (ht : t.val = t'.val)
    (h0 : (x 0).val = (x' 0).val) (h1 : (x 1).val = (x' 1).val) : stripAt m c t x = stripAt m c t' x' := by
  have et : t = t' := Fin.ext ht
  have ex : x = x' := funext fun a => Fin.ext (by match a with | ⟨0, _⟩ => exact h0 | ⟨1, _⟩ => exact h1)
  rw [et, ex]

/-! ## The staging buffer after point t -/

/-- After point t the staging buffer holds, for every point t' <= t of the same output block, that point's strip in its
    columns. -/
theorem leaves_strip (c : Dev nD) : ∀ (n : ℕ) (t : Fin cfg0.N), t.val = n → ∀ X, (rdat m c).Leaves 3 t X →
    ∀ (t' : Fin cfg0.N), t'.val ≤ t.val → t'.val / 8 = t.val / 8 →
    ∀ (x : S32x16.Idx) (y : S32x128.Idx), (y 0).val = (x 0).val → (y 1).val = 16 * (t'.val % 8) + (x 1).val →
      X y = stripAt m c t' x := by
  intro n
  induction n with
  | zero =>
    intro t ht X hX t' hle hblk x y h0 h1
    obtain ⟨Y, hY, hR⟩ := hX
    rw [rdat_after3] at hR
    have hR' : StripRel (16 * (grid0.coords t 1).val) (stripAt m c t) Y X := hR
    have ett : t' = t := Fin.ext (by omega)
    subst ett
    exact hR'.1 x y h0 (by rw [coord1]; exact h1)
  | succ n ih =>
    intro t ht X hX t' hle hblk x y h0 h1
    obtain ⟨Y, hY, hR⟩ := hX
    rw [rdat_after3] at hR
    have hR' : StripRel (16 * (grid0.coords t 1).val) (stripAt m c t) Y X := hR
    by_cases ett : t'.val = t.val
    · have e : t' = t := Fin.ext ett
      subst e
      exact hR'.1 x y h0 (by rw [coord1]; exact h1)
    · have hlt : t'.val < t.val := by omega
      have hx1 : (x 1).val < 16 := (x 1).isLt
      have hfin := ((rdat m c).finds_of_pos (fetch0_3 t) (by omega) Y).mp hY
      rcases hfin with hfl | hL
      · have h7 := (flush0_3 _).mp hfl
        have h7' : (t.val - 1) % 8 = 7 := h7
        exfalso; omega
      · have hprev := ih ⟨t.val - 1, Nat.lt_of_le_of_lt (Nat.sub_le _ _) t.isLt⟩ (by show t.val - 1 = n; omega) Y hL t'
          (by show t'.val ≤ t.val - 1; omega) (by show t'.val / 8 = (t.val - 1) / 8; omega) x y h0 h1
        rw [← hprev]
        exact hR'.2 y (Or.inl (by rw [coord1, h1]; omega))

/-! ## The array after the run -/

/-- Array entry (q, d): column d % 16 of the strip of point d / 16, at row q. -/
def colOf (c : Dev nD) (q : Fin 32) (d : ℕ) (hd : d < 256) : Elt F .f32 :=
  stripAt m c ⟨d / 16, by show d / 16 < grid0.N; rw [N_0]; omega⟩ (ix2 q ⟨d % 16, by omega⟩)

/-- The whole output array. -/
def kOut (c : Dev nD) : S32x256.Idx → Elt F .f32 := fun i => colOf m c (i 0) (i 1).val (i 1).isLt

/-- What a flushing point writes back is its block of `kOut`. -/
theorem flushed_eq (c : Dev nD) (t : Fin cfg0.N) (hf : (cfg0.win 3).flush t = true) (X) (hX : (rdat m c).Leaves 3 t X) :
    (cfg0.win 3).cut (cfg0.grid.coords t) X = ((cfg0.win 3).blk t).view.read (Elt F) (kOut m c) := by
  have h7 : t.val % 8 = 7 := (flush0_3 t).mp hf
  have hN : t.val < 16 := lt16 t
  obtain ⟨e0, e1⟩ := idx3 t
  funext j
  show X j = kOut m c (((cfg0.win 3).blk t).view.emb j)
  have hj0 : (j 0).val < 32 := (j 0).isLt
  have hj1 : (j 1).val < 128 := (j 1).isLt
  have hx := leaves_strip m c t.val t rfl X hX ⟨8 * (t.val / 8) + (j 1).val / 16, by show _ < grid0.N; rw [N_0]; omega⟩
    (by show 8 * (t.val / 8) + (j 1).val / 16 ≤ t.val; omega)
    (by show (8 * (t.val / 8) + (j 1).val / 16) / 8 = t.val / 8; omega)
    (ix2 (j 0) ⟨(j 1).val % 16, by omega⟩) j rfl
    (by show (j 1).val = 16 * ((8 * (t.val / 8) + (j 1).val / 16) % 8) + (j 1).val % 16; omega)
  rw [hx]
  unfold kOut colOf
  refine stripAt_congr m c _ _ _ _ ?_ ?_ ?_
  · show 8 * (t.val / 8) + (j 1).val / 16 = (win0_3.index t (1 : Fin 2) * 128 + 1 * (j 1).val) / 16
    rw [e1]; omega
  · show (j 0).val = win0_3.index t (0 : Fin 2) * 32 + 1 * (j 0).val
    rw [e0]; omega
  · show (j 1).val % 16 = (win0_3.index t (1 : Fin 2) * 128 + 1 * (j 1).val) % 16
    rw [e1]; omega

/-- An index of the array is in point t's block iff each coordinate is in the block's range on its axis. -/
theorem mem_blk3 (t : Fin cfg0.N) (i : S32x256.Idx) :
    i ∈ ((cfg0.win 3).blk t).view.set ↔ ∀ a : Fin 2, win0_3.index t a * S32x128.size a ≤ (i a).val ∧ (i a).val < win0_3.index t a * S32x128.size a + S32x128.size a := by
  show i ∈ ((View.whole main_v12).slice (win0_3.rect t)).set ↔ _
  rw [View.set_slice_whole, Rect.mem_set_unit]
  exact Iff.rfl

/-- The two written-back blocks cover the array. -/
theorem cover3 (i : S32x256.Idx) : ∃ t : Fin cfg0.N, (cfg0.win 3).flush t = true ∧ i ∈ ((cfg0.win 3).blk t).view.set := by
  have hi0 : (i 0).val < 32 := (i 0).isLt
  have hi1 : (i 1).val < 256 := (i 1).isLt
  let t : Fin cfg0.N := ⟨8 * ((i 1).val / 128) + 7, by show _ < grid0.N; rw [N_0]; omega⟩
  have htv : t.val = 8 * ((i 1).val / 128) + 7 := rfl
  obtain ⟨e0, e1⟩ := idx3 t
  refine ⟨t, (flush0_3 t).mpr (by rw [htv]; omega), ?_⟩
  rw [mem_blk3]
  intro a
  match a with
  | ⟨0, _⟩ =>
    show win0_3.index t (0 : Fin 2) * 32 ≤ (i 0).val ∧ (i 0).val < win0_3.index t (0 : Fin 2) * 32 + 32
    rw [e0]; omega
  | ⟨1, _⟩ =>
    show win0_3.index t (1 : Fin 2) * 128 ≤ (i 1).val ∧ (i 1).val < win0_3.index t (1 : Fin 2) * 128 + 128
    rw [e1, htv]; omega

/-- Whatever the output array may hold after every write-back, it is `kOut`. -/
theorem final3 (c : Dev nD) (G) (hG : (rdat m c).ArrAt 3 cfg0.N G) : G = kOut m c :=
  (rdat m c).arrAt_eq_of_cover 3 (kOut m c) (fun t hf X hX => flushed_eq m c t hf X hX) cover3 G hG

/-- The run, with the output array named. -/
theorem run_value : θ_run defs (onTc (τ := τ) (main (F := F))) ⟨m, fun _ => 0, ρ⟩ (fun r => ∀ c : Dev nD,
      r.2.mem ((c.tc : Thread nD τ).loc main_v12) = kOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨final3 m c _ ((h c).1 3),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.KernelIdeal.Body

end
-- ==== Proof.KernelIdealCol.lean ====
/-
  One entry of a strip at the ideal values.

  At the extended reals the body's arithmetic for one document is: the 1024 x 180 matrix of dot products over the 128
  features (a matrix product into a zero accumulator is the plain sum), high part plus low part; viewed as
  32 x 32 x 180 (row 32 q + m of the flattened queries is token m of query q); the maximum over the 180 document tokens (a fold of
  max from the accumulator's value, in any order); the sum over the 32 tokens of the query.
-/
import proofs.«145675_j86930138071100_2_alg».proof.Proof.KernelIdealBody
import Idealize.ShloMosaic.Lib.ValueIdx
import Idealize.ShloMosaic.Lib.Pipeline.Value
import Idealize.ShloMosaic.PureOps.Ideal.Laws

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-- The dot product, over the 128 features, of row r of a (flattened) query block with token n of a document. -/
def dotRow (x : FVec Ideal S1024x128 .bf16) (d : FVec Ideal S1x180x128 .bf16) (r : Fin 1024) (n : Fin 180) : EReal :=
  ∑ h : Fin 128, x (ix2 r h) * d (ix3 (0 : Fin 1) n h)

theorem lhs_0 (j : S1024x180.Idx) (k : dot_S1024x128_S180x128_S1024x180_1_1_0_0_n_n.contr.Idx) : (dot_S1024x128_S180x128_S1024x180_1_1_0_0_n_n.lhsIdx j k 0).val = (j 0).val := by
  unfold DotDims.lhsIdx
  rw [dif_neg (show ¬(0 : Fin S1024x128.rank) ∈ dot_S1024x128_S180x128_S1024x180_1_1_0_0_n_n.lhsBatch by decide), dif_pos (show (0 : Fin S1024x128.rank) ∈ dot_S1024x128_S180x128_S1024x180_1_1_0_0_n_n.lhsNonContracting by decide)]
  rfl
theorem lhs_1 (j : S1024x180.Idx) (k : dot_S1024x128_S180x128_S1024x180_1_1_0_0_n_n.contr.Idx) : (dot_S1024x128_S180x128_S1024x180_1_1_0_0_n_n.lhsIdx j k 1).val = (k ⟨0, by decide⟩).val :=
  dot_S1024x128_S180x128_S1024x180_1_1_0_0_n_n.lhsIdx_val_of_single rfl j k
theorem rhs_0 (j : S1024x180.Idx) (k : dot_S1024x128_S180x128_S1024x180_1_1_0_0_n_n.contr.Idx) : (dot_S1024x128_S180x128_S1024x180_1_1_0_0_n_n.rhsIdx j k 0).val = (j 1).val := by
  unfold DotDims.rhsIdx
  rw [dif_neg (show ¬(0 : Fin S180x128.rank) ∈ dot_S1024x128_S180x128_S1024x180_1_1_0_0_n_n.rhsBatch by decide), dif_pos (show (0 : Fin S180x128.rank) ∈ dot_S1024x128_S180x128_S1024x180_1_1_0_0_n_n.rhsNonContracting by decide)]
  rfl
theorem rhs_1 (j : S1024x180.Idx) (k : dot_S1024x128_S180x128_S1024x180_1_1_0_0_n_n.contr.Idx) : (dot_S1024x128_S180x128_S1024x180_1_1_0_0_n_n.rhsIdx j k 1).val = (k ⟨0, by decide⟩).val :=
  dot_S1024x128_S180x128_S1024x180_1_1_0_0_n_n.rhsIdx_val_of_single rfl j k

/-- One matrix product of the body, at an entry: the dot product of the row with the document token. -/
theorem matmul_at (x : FVec Ideal S1024x128 .bf16) (d : FVec Ideal S1x180x128 .bf16) (r : Fin 1024) (n : Fin 180) :
    matmul (F := Ideal) dot_S1024x128_S180x128_S1024x180_1_1_0_0_n_n none (shapeCast S1024x128 x shapeCasts_S1024x128_S1024x128)
      (shapeCast S180x128 d shapeCasts_S1x180x128_S180x128) (constant S1024x180 .f32 0x00000000#32) (ix2 r n)
      = dotRow x d r n := by
  rw [shapeCast_self]
  simp only [matmul]
  rw [Ideal.matmul_constant_zero_apply, ← Equiv.sum_comp (contrEquiv1 dot_S1024x128_S180x128_S1024x180_1_1_0_0_n_n 128 rfl rfl).symm]
  unfold dotRow
  refine Finset.sum_congr rfl fun k _ => ?_
  have hk := contrEquiv1_symm_val dot_S1024x128_S180x128_S1024x180_1_1_0_0_n_n 128 rfl rfl k
  have el : dot_S1024x128_S180x128_S1024x180_1_1_0_0_n_n.lhsIdx (ix2 r n) ((contrEquiv1 dot_S1024x128_S180x128_S1024x180_1_1_0_0_n_n 128 rfl rfl).symm k) = ix2 r k := funext fun a => Fin.ext (by
    match a with
    | ⟨0, _⟩ => exact lhs_0 _ _
    | ⟨1, _⟩ => exact (lhs_1 _ _).trans hk)
  have er : dot_S1024x128_S180x128_S1024x180_1_1_0_0_n_n.rhsIdx (ix2 r n) ((contrEquiv1 dot_S1024x128_S180x128_S1024x180_1_1_0_0_n_n 128 rfl rfl).symm k) = ix2 n k := funext fun a => Fin.ext (by
    match a with
    | ⟨0, _⟩ => exact rhs_0 _ _
    | ⟨1, _⟩ => exact (rhs_1 _ _).trans hk)
  rw [el, er]
  refine congrArg (x (ix2 r k) * ·) ?_
  exact shapeCast_apply d shapeCasts_S1x180x128_S180x128 (ix2 n k) (ix3 (0 : Fin 1) n k) (by
    rw [Shape.rowMajor_val_three, Shape.rowMajor_val_two]
    show ((0 : ℕ) * 180 + n.val) * 128 + k.val = n.val * 128 + k.val
    omega)

/-- Row 32 q + m of the flattened queries: token m of query q. -/
def qrow (q mm : Fin 32) : Fin 1024 := ⟨32 * q.val + mm.val, by omega⟩

/-- One score at the ideal values: query q against one document — the sum over the query's 32 tokens of the maximum over the
    document's 180 tokens of the dot product (high part plus low part). -/
def colScore (x0 x1 : FVec Ideal S1024x128 .bf16) (d : FVec Ideal S1x180x128 .bf16) (q : Fin 32) : EReal :=
  ∑ mm : Fin 32, (Finset.univ : Finset (Fin 180)).fold max (FloatOps.ofBits (F := Ideal) .f32 0xFF800000#32)
    (fun n => dotRow x0 d (qrow q mm) n + dotRow x1 d (qrow q mm) n)

/-- A column vector [32] viewed [32, 1], at (q, 0). -/
theorem cast_col (v : FVec Ideal S32 .f32) (q : Fin 32) :
    shapeCast S32x1 v shapeCasts_S32_S32x1 (ix2 q (0 : Fin 1)) = v (ix1 q) :=
  shapeCast_apply v shapeCasts_S32_S32x1 (ix2 q (0 : Fin 1)) (ix1 q) (by
    rw [Shape.rowMajor_val_one, Shape.rowMajor_val_two]; show q.val = q.val * 1 + 0; omega)

/-- The sum over a query's 32 tokens. -/
theorem sum_tokens (v : FVec Ideal S32x32 .f32) (q : Fin 32) :
    multiReduction .add [1] S32 v 0x00000000#32 reduces_S32x32_S32 (.inl rfl) rfl (ix1 q) = ∑ mm : Fin 32, v (ix2 q mm) := by
  refine (Ideal.multiReduction_add_single v 0x00000000#32 reduces_S32x32_S32 (.inl rfl) rfl (ix1 q)).trans ?_
  refine Finset.sum_congr rfl fun mm _ => congrArg v ?_
  exact funext fun a => Fin.ext (by match a with | ⟨0, _⟩ => rfl | ⟨1, _⟩ => rfl)

/-- The maximum over a document's 180 tokens: a fold of max from the accumulator's value. -/
theorem max_tokens (v : FVec Ideal S32x32x180 .f32) (q mm : Fin 32) :
    multiReduction .maximumf [2] S32x32 v 0xFF800000#32 reduces_S32x32x180_S32x32 (.inl rfl) rfl (ix2 q mm)
      = (Finset.univ : Finset (Fin 180)).fold max (FloatOps.ofBits (F := Ideal) .f32 0xFF800000#32) (fun n => v (ix3 q mm n)) := by
  refine (Ideal.multiReduction_maximumf_single v 0xFF800000#32 reduces_S32x32x180_S32x32 (.inl rfl) rfl (ix2 q mm)).trans ?_
  refine congrArg (fun f => Finset.fold max (FloatOps.ofBits (F := Ideal) .f32 0xFF800000#32) f Finset.univ) (funext fun n => ?_)
  exact congrArg v (funext fun a => Fin.ext (by match a with | ⟨0, _⟩ => rfl | ⟨1, _⟩ => rfl | ⟨2, _⟩ => rfl))

/-- The 1024 x 180 matrix viewed 32 x 32 x 180: entry (q, m, n) is entry (32 q + m, n). -/
theorem cast_rows (v : FVec Ideal S1024x180 .f32) (q mm : Fin 32) (n : Fin 180) :
    shapeCast S32x32x180 v shapeCasts_S1024x180_S32x32x180 (ix3 q mm n) = v (ix2 (qrow q mm) n) :=
  shapeCast_apply v shapeCasts_S1024x180_S32x32x180 (ix3 q mm n) (ix2 (qrow q mm) n) (by
    rw [Shape.rowMajor_val_two, Shape.rowMajor_val_three]
    show (32 * q.val + mm.val) * 180 + n.val = (q.val * 32 + mm.val) * 180 + n.val; omega)

theorem docCol_apply (x0 x1 : FVec Ideal S1024x128 .bf16) (d : FVec Ideal S1x180x128 .bf16) (q : Fin 32) :
    docCol (F := Ideal) x0 x1 d (ix2 q (0 : Fin 1)) = colScore x0 x1 d q := by
  unfold docCol colScore
  refine (cast_col _ q).trans ?_
  refine (sum_tokens _ q).trans ?_
  refine Finset.sum_congr rfl fun mm _ => ?_
  refine (max_tokens _ q mm).trans ?_
  refine congrArg (fun f => Finset.fold max (FloatOps.ofBits (F := Ideal) .f32 0xFF800000#32) f Finset.univ) (funext fun n => ?_)
  refine (cast_rows _ q mm n).trans ?_
  refine (addf_apply _ _ _).trans ?_
  exact congrArg₂ (· + ·) (matmul_at x0 d (qrow q mm) n) (matmul_at x1 d (qrow q mm) n)

/-- Document k of a block of 16, as a 1 x 180 x 128 array. -/
def docOf (x2 : FVec Ideal S16x180x128 .bf16) (k : Fin 16) : FVec Ideal S1x180x128 .bf16 :=
  fun y => x2 (ix3 k (⟨(y 1).val, (y 1).isLt⟩ : Fin 180) (⟨(y 2).val, (y 2).isLt⟩ : Fin 128))

theorem slab_eq (x2 : FVec Ideal S16x180x128 .bf16) (k : ℕ) (hk : k < 16)
    (h : ∀ a, (![k, 0, 0] : Fin 3 → ℕ) a + S1x180x128.size a ≤ S16x180x128.size a) :
    slab (F := Ideal) x2 k h = docOf x2 ⟨k, hk⟩ := by
  funext y
  show x2 ((Rect.unit (s := S16x180x128) ![k, 0, 0] S1x180x128.size h).idx y) = x2 _
  refine congrArg x2 (funext fun a => Fin.ext ?_)
  have hy0 : (y 0).val < 1 := (y 0).isLt
  match a with
  | ⟨0, _⟩ => show k + 1 * (y 0).val = k; omega
  | ⟨1, _⟩ => show 0 + 1 * (y 1).val = (y 1).val; omega
  | ⟨2, _⟩ => show 0 + 1 * (y 2).val = (y 2).val; omega

/-- An entry of the strip: column cc is document cc's column. -/
theorem stripPay_apply (x0 x1 : FVec Ideal S1024x128 .bf16) (x2 : FVec Ideal S16x180x128 .bf16) (q : Fin 32) (cc : Fin 16) :
    stripPay (F := Ideal) x0 x1 x2 (ix2 q cc) = colScore x0 x1 (docOf x2 cc) q := by
  unfold stripPay
  rw [slab_eq x2 0 (by decide) inb_S16x180x128_S1x180x128_0_0_0,
    slab_eq x2 1 (by decide) inb_S16x180x128_S1x180x128_1_0_0,
    slab_eq x2 2 (by decide) inb_S16x180x128_S1x180x128_2_0_0,
    slab_eq x2 3 (by decide) inb_S16x180x128_S1x180x128_3_0_0,
    slab_eq x2 4 (by decide) inb_S16x180x128_S1x180x128_4_0_0,
    slab_eq x2 5 (by decide) inb_S16x180x128_S1x180x128_5_0_0,
    slab_eq x2 6 (by decide) inb_S16x180x128_S1x180x128_6_0_0,
    slab_eq x2 7 (by decide) inb_S16x180x128_S1x180x128_7_0_0,
    slab_eq x2 8 (by decide) inb_S16x180x128_S1x180x128_8_0_0,
    slab_eq x2 9 (by decide) inb_S16x180x128_S1x180x128_9_0_0,
    slab_eq x2 10 (by decide) inb_S16x180x128_S1x180x128_10_0_0,
    slab_eq x2 11 (by decide) inb_S16x180x128_S1x180x128_11_0_0,
    slab_eq x2 12 (by decide) inb_S16x180x128_S1x180x128_12_0_0,
    slab_eq x2 13 (by decide) inb_S16x180x128_S1x180x128_13_0_0,
    slab_eq x2 14 (by decide) inb_S16x180x128_S1x180x128_14_0_0,
    slab_eq x2 15 (by decide) inb_S16x180x128_S1x180x128_15_0_0]
  refine (concatenate_ofFn_apply (t := S32x16) (s₁ := S32x1) (1 : Fin 2)
    (fun k : Fin 16 => docCol (F := Ideal) x0 x1 (docOf x2 k)) _ rfl 1 rfl (ix2 q cc) cc
    (by show cc.val / 1 = cc.val; omega) (ix2 q (0 : Fin 1)) (by show 0 = cc.val % 1; omega) (fun b hb => ?_)).trans
    (docCol_apply x0 x1 (docOf x2 cc) q)
  match b with
  | ⟨0, _⟩ => rfl
  | ⟨1, _⟩ => exact absurd rfl hb

end Cert.KernelIdeal.Body

end
-- ==== Proof.MaxSimSpec.lean ====
/-
  The MaxSim (late-interaction) score as one function of the four argument arrays, and the one algebraic law the kernel needs.

  score(q, d) = sum over the 32 tokens m of query q of the maximum over the 180 tokens n of document d of the dot product,
  over the 128 features h, of the masked document token D[d,n,h] * dmask[d,n] with the masked query token
  Q[q,m,h] * qmask[q,m].  The maximum is a fold of max from the value of the accumulator's pattern (minus infinity), in any order.

  The kernel splits each masked query entry a into a "high" part a and a "low" part a - a.  On the extended reals a - a is
  zero exactly when a is finite (infinity minus infinity is not), so under finite inputs the low part's dot product is a sum of
  zeros and the two-part dot product is the plain one; the factors' order is commutativity.
-/
import Idealize.ShloMosaic.PureOps.Ideal
import Idealize.ShloMosaic.Lib.ValueIdx

noncomputable section

open scoped BigOperators

namespace Cert.MaxSim

open Idealize.ShloMosaic Idealize.ShloMosaic.ValueIdx

/-- The score of query q against document d. -/
def score (Q : (⟨3, ![32, 32, 128]⟩ : Shape).Idx → EReal) (D : (⟨3, ![256, 180, 128]⟩ : Shape).Idx → EReal)
    (qm : (⟨2, ![32, 32]⟩ : Shape).Idx → EReal) (dm : (⟨2, ![256, 180]⟩ : Shape).Idx → EReal) (q : Fin 32) (d : Fin 256) : EReal :=
  ∑ mm : Fin 32, (Finset.univ : Finset (Fin 180)).fold max (Ideal.ofBits .f32 0xFF800000#32)
    (fun n => ∑ h : Fin 128, (D (ix3 d n h) * dm (ix2 d n)) * (Q (ix3 q mm h) * qm (ix2 q mm)))

/-- A finite number minus itself is zero. -/
theorem sub_self_of_real {x : EReal} (h : ∃ r : ℝ, x = r) : x - x = 0 := by
  obtain ⟨r, rfl⟩ := h
  rw [← EReal.coe_sub, sub_self, EReal.coe_zero]

/-- A product of finite numbers is finite. -/
theorem mul_real {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

/-- The two-part dot product: with a finite, (sum of a * b) + (sum of (a - a) * b) is the sum of b * a. -/
theorem two_part {K : ℕ} (a b : Fin K → EReal) (ha : ∀ h, ∃ r : ℝ, a h = r) :
    (∑ h, a h * b h) + (∑ h, (a h - a h) * b h) = ∑ h, b h * a h := by
  have z : ∀ h, (a h - a h) * b h = 0 := fun h => by rw [sub_self_of_real (ha h), zero_mul]
  rw [Finset.sum_congr rfl (fun h _ => z h), Finset.sum_const_zero, add_zero]
  exact Finset.sum_congr rfl fun h _ => mul_comm _ _

end Cert.MaxSim

end
-- ==== Proof.KernelIdealInputs.lean ====
/-
  The kernel's inputs at the ideal values, and a strip entry as the score.

  Before the region the host multiplies the queries by their mask and flattens them to 1024 x 128 (row 32 q + m is token
  m of query q); the "high" part is that array (a change of format is the identity at the ideal values), the "low" part is the
  array minus itself; the documents are multiplied by their mask.  The two query windows hold the whole arrays at every
  point; the document window at point t holds documents 16 t .. 16 t + 15.  So entry (q, cc) of point t's strip is the score
  of query q against document 16 t + cc, once the low part is known to vanish (finite inputs).
-/
import proofs.«145675_j86930138071100_2_alg».proof.Proof.KernelIdealData
import proofs.«145675_j86930138071100_2_alg».proof.Proof.KernelIdealCol
import proofs.«145675_j86930138071100_2_alg».proof.Proof.MaxSimSpec
import Idealize.ShloMosaic.Lib.StableHlo.Run

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Idealize.ShloMosaic.StableHlo

variable (m : (ℓ : Loc nD τ sig) → Buf (Elt Ideal) ℓ)

/-! ## The host operations before the region -/

/-- The masked queries, flattened to 1024 x 128. -/
def qFlat (Q : FVec Ideal S32x32x128 .f32) (qm : FVec Ideal S32x32 .f32) : FVec Ideal S1024x128 .f32 :=
  shapeCast S1024x128 (mulf Q (broadcastInDim S32x32x128 ![0, 1, 2] bcast_S32x32x1_S32x32x128_0_1_2
    (broadcastInDim S32x32x1 ![0, 1] bcast_S32x32_S32x32x1_0_1 qm))) shapeCasts_S32x32x128_S1024x128

/-- The masked documents. -/
def dMasked (D : FVec Ideal S256x180x128 .f32) (dm : FVec Ideal S256x180 .f32) : FVec Ideal S256x180x128 .f32 :=
  mulf D (broadcastInDim S256x180x128 ![0, 1, 2] bcast_S256x180x1_S256x180x128_0_1_2
    (broadcastInDim S256x180x1 ![0, 1] bcast_S256x180_S256x180x1_0_1 dm))

theorem V_v4 (c : Dev nD) : (V m c main_v4 : S1024x128.Idx → Elt Ideal .bf16)
    = truncf .bf16 (qFlat (m ((c.tc : Thread nD τ).loc main_arg0)) (m ((c.tc : Thread nD τ).loc main_arg2))) bitsLt_bf16_f32 := by
  dsimp only [Gen.V, Gen.hostOps0]; after_results; rfl

theorem V_v7 (c : Dev nD) : (V m c main_v7 : S1024x128.Idx → Elt Ideal .bf16)
    = truncf .bf16 (subf (qFlat (m ((c.tc : Thread nD τ).loc main_arg0)) (m ((c.tc : Thread nD τ).loc main_arg2)))
        (extf .f32 (truncf .bf16 (qFlat (m ((c.tc : Thread nD τ).loc main_arg0)) (m ((c.tc : Thread nD τ).loc main_arg2))) bitsLt_bf16_f32) bitsLt_bf16_f32)) bitsLt_bf16_f32 := by
  dsimp only [Gen.V, Gen.hostOps0]; after_results; rfl

theorem V_v11 (c : Dev nD) : (V m c main_v11 : S256x180x128.Idx → Elt Ideal .bf16)
    = truncf .bf16 (dMasked (m ((c.tc : Thread nD τ).loc main_arg1)) (m ((c.tc : Thread nD τ).loc main_arg3))) bitsLt_bf16_f32 := by
  dsimp only [Gen.V, Gen.hostOps0]; after_results; rfl

/-- Row 32 q + m, feature h of the flattened masked queries: the query's entry times its mask. -/
theorem qFlat_apply (Q : FVec Ideal S32x32x128 .f32) (qm : FVec Ideal S32x32 .f32) (q mm : Fin 32) (h : Fin 128) :
    qFlat Q qm (ix2 (qrow q mm) h) = Q (ix3 q mm h) * qm (ix2 q mm) := by
  unfold qFlat
  refine (shapeCast_apply _ shapeCasts_S32x32x128_S1024x128 (ix2 (qrow q mm) h) (ix3 q mm h) (by
    rw [Shape.rowMajor_val_three, Shape.rowMajor_val_two]
    show (q.val * 32 + mm.val) * 128 + h.val = (32 * q.val + mm.val) * 128 + h.val; omega)).trans ?_
  refine (mulf_apply _ _ _).trans ?_
  refine congrArg (Q (ix3 q mm h) * ·) ?_
  refine (broadcastInDim_apply _ bcast_S32x32x1_S32x32x128_0_1_2 _ (ix3 q mm h) (ix3 q mm (0 : Fin 1)) (fun a => match a with
    | ⟨0, _⟩ => by show q.val = if (32 : Nat) = 1 then 0 else q.val; rw [if_neg (by decide)]
    | ⟨1, _⟩ => by show mm.val = if (32 : Nat) = 1 then 0 else mm.val; rw [if_neg (by decide)]
    | ⟨2, _⟩ => by show 0 = if (1 : Nat) = 1 then 0 else h.val; rw [if_pos rfl])).trans ?_
  exact broadcastInDim_apply _ bcast_S32x32_S32x32x1_0_1 qm (ix3 q mm (0 : Fin 1)) (ix2 q mm) (fun a => match a with
    | ⟨0, _⟩ => by show q.val = if (32 : Nat) = 1 then 0 else q.val; rw [if_neg (by decide)]
    | ⟨1, _⟩ => by show mm.val = if (32 : Nat) = 1 then 0 else mm.val; rw [if_neg (by decide)])

/-- Token n, feature h of masked document d. -/
theorem dMasked_apply (D : FVec Ideal S256x180x128 .f32) (dm : FVec Ideal S256x180 .f32) (d : Fin 256) (n : Fin 180) (h : Fin 128) :
    dMasked D dm (ix3 d n h) = D (ix3 d n h) * dm (ix2 d n) := by
  unfold dMasked
  refine (mulf_apply _ _ _).trans ?_
  refine congrArg (D (ix3 d n h) * ·) ?_
  refine (broadcastInDim_apply _ bcast_S256x180x1_S256x180x128_0_1_2 _ (ix3 d n h) (ix3 d n (0 : Fin 1)) (fun a => match a with
    | ⟨0, _⟩ => by show d.val = if (256 : Nat) = 1 then 0 else d.val; rw [if_neg (by decide)]
    | ⟨1, _⟩ => by show n.val = if (180 : Nat) = 1 then 0 else n.val; rw [if_neg (by decide)]
    | ⟨2, _⟩ => by show 0 = if (1 : Nat) = 1 then 0 else h.val; rw [if_pos rfl])).trans ?_
  exact broadcastInDim_apply _ bcast_S256x180_S256x180x1_0_1 dm (ix3 d n (0 : Fin 1)) (ix2 d n) (fun a => match a with
    | ⟨0, _⟩ => by show d.val = if (256 : Nat) = 1 then 0 else d.val; rw [if_neg (by decide)]
    | ⟨1, _⟩ => by show n.val = if (180 : Nat) = 1 then 0 else n.val; rw [if_neg (by decide)])

/-! ## The windows' blocks -/

theorem idx012 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

theorem blk0_apply (c : Dev nD) (t : Fin cfg0.N) (r : Fin 1024) (h : Fin 128) :
    (iblk m c 0 t : FVec Ideal S1024x128 .bf16) (ix2 r h) = (V m c main_v4 : S1024x128.Idx → Elt Ideal .bf16) (ix2 r h) := by
  obtain ⟨e0, e1, -⟩ := idx012 t
  show (V m c main_v4 : S1024x128.Idx → Elt Ideal .bf16) (((cfg0.win 0).blk t).view.emb (ix2 r h)) = _
  refine congrArg (V m c main_v4 : S1024x128.Idx → Elt Ideal .bf16) (funext fun a => Fin.ext ?_)
  match a with
  | ⟨0, _⟩ => show win0_0.index t (0 : Fin 2) * 1024 + 1 * r.val = r.val; rw [e0]; omega
  | ⟨1, _⟩ => show win0_0.index t (1 : Fin 2) * 128 + 1 * h.val = h.val; rw [e1]; omega

theorem blk1_apply (c : Dev nD) (t : Fin cfg0.N) (r : Fin 1024) (h : Fin 128) :
    (iblk m c 1 t : FVec Ideal S1024x128 .bf16) (ix2 r h) = (V m c main_v7 : S1024x128.Idx → Elt Ideal .bf16) (ix2 r h) := by
  obtain ⟨-, -, e0, e1, -⟩ := idx012 t
  show (V m c main_v7 : S1024x128.Idx → Elt Ideal .bf16) (((cfg0.win 1).blk t).view.emb (ix2 r h)) = _
  refine congrArg (V m c main_v7 : S1024x128.Idx → Elt Ideal .bf16) (funext fun a => Fin.ext ?_)
  match a with
  | ⟨0, _⟩ => show win0_1.index t (0 : Fin 2) * 1024 + 1 * r.val = r.val; rw [e0]; omega
  | ⟨1, _⟩ => show win0_1.index t (1 : Fin 2) * 128 + 1 * h.val = h.val; rw [e1]; omega

theorem blk2_apply (c : Dev nD) (t : Fin cfg0.N) (k : Fin 16) (n : Fin 180) (h : Fin 128) (d : Fin 256) (hd : d.val = 16 * t.val + k.val) :
    (iblk m c 2 t : FVec Ideal S16x180x128 .bf16) (ix3 k n h) = (V m c main_v11 : S256x180x128.Idx → Elt Ideal .bf16) (ix3 d n h) := by
  obtain ⟨-, -, -, -, e0, e1, e2⟩ := idx012 t
  show (V m c main_v11 : S256x180x128.Idx → Elt Ideal .bf16) (((cfg0.win 2).blk t).view.emb (ix3 k n h)) = _
  refine congrArg (V m c main_v11 : S256x180x128.Idx → Elt Ideal .bf16) (funext fun a => Fin.ext ?_)
  match a with
  | ⟨0, _⟩ => show win0_2.index t (0 : Fin 3) * 16 + 1 * k.val = d.val; rw [e0, hd]; omega
  | ⟨1, _⟩ => show win0_2.index t (1 : Fin 3) * 180 + 1 * n.val = n.val; rw [e1]; omega
  | ⟨2, _⟩ => show win0_2.index t (2 : Fin 3) * 128 + 1 * h.val = h.val; rw [e2]; omega

/-! ## A strip entry is the score -/

/-- The four argument arrays as launched, at their literal types. -/
abbrev argQ (c : Dev nD) : FVec Ideal S32x32x128 .f32 := m ((c.tc : Thread nD τ).loc main_arg0)
abbrev argD (c : Dev nD) : FVec Ideal S256x180x128 .f32 := m ((c.tc : Thread nD τ).loc main_arg1)
abbrev argQm (c : Dev nD) : FVec Ideal S32x32 .f32 := m ((c.tc : Thread nD τ).loc main_arg2)
abbrev argDm (c : Dev nD) : FVec Ideal S256x180 .f32 := m ((c.tc : Thread nD τ).loc main_arg3)

/-- The three input blocks at point t, at their literal types. -/
abbrev blkHi (c : Dev nD) (t : Fin cfg0.N) : FVec Ideal S1024x128 .bf16 := iblk m c 0 t
abbrev blkLo (c : Dev nD) (t : Fin cfg0.N) : FVec Ideal S1024x128 .bf16 := iblk m c 1 t
abbrev blkD (c : Dev nD) (t : Fin cfg0.N) : FVec Ideal S16x180x128 .bf16 := iblk m c 2 t

theorem stripAt_eq_score (c : Dev nD)
    (hQ : ∀ i, ∃ r : ℝ, argQ m c i = r)
    (hqm : ∀ i, ∃ r : ℝ, argQm m c i = r)
    (t : Fin cfg0.N) (q : Fin 32) (cc : Fin 16) (d : Fin 256) (hd : d.val = 16 * t.val + cc.val) :
    stripAt m c t (ix2 q cc) = Cert.MaxSim.score (argQ m c) (argD m c) (argQm m c) (argDm m c) q d := by
  unfold stripAt
  refine (stripPay_apply (blkHi m c t) (blkLo m c t) (blkD m c t) q cc).trans ?_
  unfold colScore Cert.MaxSim.score
  refine Finset.sum_congr rfl fun mm _ => ?_
  refine congrArg (fun f => Finset.fold max (Ideal.ofBits .f32 0xFF800000#32) f Finset.univ) (funext fun n => ?_)
  unfold dotRow
  have h0 : ∀ h : Fin 128, blkHi m c t (ix2 (qrow q mm) h)
      = argQ m c (ix3 q mm h) * argQm m c (ix2 q mm) := fun h => by
    exact (blk0_apply m c t (qrow q mm) h).trans ((congrFun (V_v4 m c) _).trans (qFlat_apply _ _ q mm h))
  have h1 : ∀ h : Fin 128, blkLo m c t (ix2 (qrow q mm) h)
      = argQ m c (ix3 q mm h) * argQm m c (ix2 q mm)
        - argQ m c (ix3 q mm h) * argQm m c (ix2 q mm) := fun h => by
    refine (blk1_apply m c t (qrow q mm) h).trans ((congrFun (V_v7 m c) _).trans ?_)
    show qFlat _ _ (ix2 (qrow q mm) h) - qFlat _ _ (ix2 (qrow q mm) h) = _
    rw [qFlat_apply]
  have h2 : ∀ h : Fin 128, docOf (blkD m c t) cc (ix3 (0 : Fin 1) n h)
      = argD m c (ix3 d n h) * argDm m c (ix2 d n) := fun h => by
    show blkD m c t (ix3 cc n h) = _
    exact (blk2_apply m c t cc n h d hd).trans ((congrFun (V_v11 m c) _).trans (dMasked_apply _ _ d n h))
  have s0 : (∑ h : Fin 128, blkHi m c t (ix2 (qrow q mm) h) * docOf (blkD m c t) cc (ix3 (0 : Fin 1) n h))
      = ∑ h : Fin 128, (argQ m c (ix3 q mm h) * argQm m c (ix2 q mm)) * (argD m c (ix3 d n h) * argDm m c (ix2 d n)) :=
    Finset.sum_congr rfl fun h _ => by rw [h0 h, h2 h]
  have s1 : (∑ h : Fin 128, blkLo m c t (ix2 (qrow q mm) h) * docOf (blkD m c t) cc (ix3 (0 : Fin 1) n h))
      = ∑ h : Fin 128, (argQ m c (ix3 q mm h) * argQm m c (ix2 q mm) - argQ m c (ix3 q mm h) * argQm m c (ix2 q mm))
          * (argD m c (ix3 d n h) * argDm m c (ix2 d n)) :=
    Finset.sum_congr rfl fun h _ => by rw [h1 h, h2 h]
  refine (congrArg₂ (· + ·) s0 s1).trans ?_
  exact Cert.MaxSim.two_part (fun h : Fin 128 => argQ m c (ix3 q mm h) * argQm m c (ix2 q mm))
    (fun h : Fin 128 => argD m c (ix3 d n h) * argDm m c (ix2 d n)) (fun h => Cert.MaxSim.mul_real (hQ _) (hqm _))

end Cert.KernelIdeal.Body

end
-- ==== Proof.KernelIdealValue.lean ====
/-
  The kernel's output array at the ideal values is the score, index by index (under finite queries and query mask):
  array column d holds column d % 16 of the strip of point d / 16, which is the score against document 16 (d / 16) + d % 16 = d.
-/
import proofs.«145675_j86930138071100_2_alg».proof.Proof.KernelIdealStrips
import proofs.«145675_j86930138071100_2_alg».proof.Proof.KernelIdealInputs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

theorem kOut_eq (c : Dev nD) (hQ : ∀ i, ∃ r : ℝ, argQ m c i = r) (hqm : ∀ i, ∃ r : ℝ, argQm m c i = r) :
    kOut m c = fun i : S32x256.Idx => Cert.MaxSim.score (argQ m c) (argD m c) (argQm m c) (argDm m c)
      ⟨(i 0).val, (i 0).isLt⟩ ⟨(i 1).val, (i 1).isLt⟩ := by
  funext i
  have hi1 : (i 1).val < 256 := (i 1).isLt
  unfold kOut colOf
  exact stripAt_eq_score m c hQ hqm _ ⟨(i 0).val, (i 0).isLt⟩ ⟨(i 1).val % 16, by omega⟩ ⟨(i 1).val, (i 1).isLt⟩
    (by show (i 1).val = 16 * ((i 1).val / 16) + (i 1).val % 16; omega)

end Cert.KernelIdeal.Body

end
-- ==== Proof.RefValue.lean ====
/-
  The reference at the ideal values is the score.

  The reference multiplies queries and documents by their masks, contracts the 128 features of every (document token, query
  token) pair (documents on the left), transposes to (query, document, query token, document token), takes the maximum over the
  document tokens (a reduction from minus infinity: a fold of max in any order) and the sum over the query tokens (from zero).
-/
import proofs.«145675_j86930138071100_2_alg».proof.Proof.Gen.ReferenceIdeal.Run
import proofs.«145675_j86930138071100_2_alg».proof.Proof.Gen.ReferenceIdeal.Read
import proofs.«145675_j86930138071100_2_alg».proof.Proof.MaxSimSpec
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx Idealize.ShloMosaic.TcCoe Idealize.SL.Sem

theorem red3 : S32x256x32x180.Reduces [3] S32x256x32 := by decide

/-- The reference's result at (q, d) is the score of query q against document d. -/
theorem ref_eq (Q : (⟨S32x32x128, .f32⟩ : BufTy).Contents (Elt Ideal)) (D : (⟨S256x180x128, .f32⟩ : BufTy).Contents (Elt Ideal))
    (qm : (⟨S32x32, .f32⟩ : BufTy).Contents (Elt Ideal)) (dm : (⟨S256x180, .f32⟩ : BufTy).Contents (Elt Ideal)) (q : Fin 32) (d : Fin 256) :
    val_main_v9 (F := Ideal) Q D qm dm (ix2 q d) = Cert.MaxSim.score Q D qm dm q d := by
  rw [val_main_v9_apply]
  rw [show val_main_cst_0 (F := Ideal) (Shape.Idx.first h_S_) = (0 : EReal) from Ideal.ofBits_zero_f32, zero_add]
  unfold Cert.MaxSim.score
  refine Finset.sum_congr rfl fun mm _ => ?_
  have e9 : idx_main_v9 (ix2 q d) mm = ix3 q d mm :=
    funext fun a => Fin.ext (by match a with | ⟨0, _⟩ => rfl | ⟨1, _⟩ => rfl | ⟨2, _⟩ => rfl)
  rw [e9]
  unfold val_main_v8
  refine (Host.reduce_eq_fold_single FloatOps.maximumf _ _ reducesTo_S32x256x32x180_S32x256x32_d3 red3 h_S_ (ix3 q d mm)).trans ?_
  refine congrArg (fun f : Fin 180 → EReal => Finset.fold max (Ideal.ofBits .f32 0xFF800000#32) f Finset.univ) (funext fun (n : Fin 180) => ?_)
  have e8 : red3.lift (ix3 q d mm) n = ix4 q d mm n :=
    funext fun a => Fin.ext (by match a with | ⟨0, _⟩ => rfl | ⟨1, _⟩ => rfl | ⟨2, _⟩ => rfl | ⟨3, _⟩ => rfl)
  show val_main_v7 (F := Ideal) Q D qm dm (red3.lift (ix3 q d mm) n) = _
  rw [e8, val_main_v7_apply, val_main_v6_apply]
  refine Finset.sum_congr rfl fun h _ => ?_
  have E1 : lidx_main_v6 (idx_main_v7 (ix4 q d mm n)) h = ix3 d n h :=
    funext fun a => Fin.ext (by match a with | ⟨0, _⟩ => rfl | ⟨1, _⟩ => rfl | ⟨2, _⟩ => rfl)
  have E3 : ridx_main_v6 (idx_main_v7 (ix4 q d mm n)) h = ix3 q mm h :=
    funext fun a => Fin.ext (by match a with | ⟨0, _⟩ => rfl | ⟨1, _⟩ => rfl | ⟨2, _⟩ => rfl)
  have E2 : idx_main_v3 (idx_main_v4 (ix3 d n h)) = ix2 d n :=
    funext fun a => Fin.ext (by match a with | ⟨0, _⟩ => rfl | ⟨1, _⟩ => rfl)
  have E4 : idx_main_v0 (idx_main_v1 (ix3 q mm h)) = ix2 q mm :=
    funext fun a => Fin.ext (by match a with | ⟨0, _⟩ => rfl | ⟨1, _⟩ => rfl)
  rw [E1, E3, val_main_v5_apply, val_main_v4_apply, val_main_v3_apply, val_main_v2_apply, val_main_v1_apply, val_main_v0_apply, E2, E4]
  rfl

end Cert.ReferenceIdeal.RefValue

end
-- ==== Proof.MaxSimFinite.lean ====
/-
  From the precondition to finiteness.

  The precondition says: every entry x of each of the four float arguments has |x| < +infinity (the conjunction of four
  "all" reductions).  On the extended reals |x| = max x (-x) is below +infinity exactly when x is neither infinity, that is, when
  x is a real number.  Only the queries and their mask are needed: they are what the kernel subtracts from itself.
-/
import proofs.«145675_j86930138071100_2_alg».proof.Pre_finite_inputs
import Idealize.ShloMosaic.Lib.ReduceAll
import Idealize.ShloMosaic.Lib.ValueIdx
import Idealize.ShloMosaic.PureOps.Ideal

noncomputable section

namespace Cert.MaxSim

open Idealize.ShloMosaic Idealize.ShloMosaic.ValueIdx Cert.Pre_finite_inputs

instance : Subsingleton S_.Idx := ⟨fun a b => funext fun d => d.elim0⟩

/-- The pattern 0x7F800000 is plus infinity. -/
theorem inf_eq : Ideal.ofBits .f32 0x7F800000#32 = (⊤ : EReal) := by
  simp [Ideal.ofBits, Ideal.ieee]

/-- |x| < +infinity makes x a real number. -/
theorem real_of_cmp (x : EReal) (e : Ideal.cmp .olt (max x (-x)) (Ideal.ofBits .f32 0x7F800000#32) = 1#1) : ∃ r : ℝ, x = r := by
  rw [inf_eq] at e
  have hlt : max x (-x) < ⊤ := by
    by_contra hn
    simp [Ideal.cmp, hn] at e
  induction x using EReal.rec with
  | bot => simp at hlt
  | coe r => exact ⟨r, rfl⟩
  | top => simp at hlt

variable [Cert.Pre_finite_inputs.Facts]

/-- Under the precondition every entry of the queries and of the query mask is a real number. -/
theorem finite_of_pre (a0 : FVec Ideal S32x32x128 .f32) (a1 : FVec Ideal S256x180x128 .f32) (a2 : FVec Ideal S32x32 .f32)
    (a3 : FVec Ideal S256x180 .f32) (h : Cert.Pre_finite_inputs.fn (F := Ideal) a0 a1 a2 a3 = fun _ => 1#1) :
    (∀ i, ∃ r : ℝ, a0 i = r) ∧ (∀ i, ∃ r : ℝ, a2 i = r) := by
  have h0 := congrFun h ix0
  dsimp only [Cert.Pre_finite_inputs.fn, Cert.Pre_finite_inputs.fn_part1] at h0
  obtain ⟨h123, h17⟩ := IntOp.andi_eq_one.1 h0
  obtain ⟨h12, h12'⟩ := IntOp.andi_eq_one.1 h123
  obtain ⟨h3, h7⟩ := IntOp.andi_eq_one.1 h12
  refine ⟨fun i => ?_, fun i => ?_⟩
  · exact real_of_cmp _ (Host.reduce_andi_all _ _ _ _ _ h3 i)
  · exact real_of_cmp _ (Host.reduce_andi_all _ _ _ _ _ h12' i)

end Cert.MaxSim

end
-- ==== Proof.lean ====
/-
  The proof of the certificate's claim for the MaxSim (late-interaction score) kernel against its jnp reference.

  The kernel multiplies queries and documents by their masks on the host, splits the masked queries into a high part (the
  array itself at the ideal values) and a low part (the array minus itself), and on a 2 x 8 grid computes, for the 16 documents
  of a point, the 32 x 16 strip of scores: dot products (high + low), maximum over document tokens, sum over query tokens; the strip goes
  into columns [16 j, 16 j + 16) of the point's 32 x 128 output block.

  Frames: the body's triple, relational proof data for the partly overwritten output block, and the library's relational frame
  run, at the word level and at the ideal values alike (Proof/KernelBody, KernelData; KernelIdealBody, KernelIdealData).  The
  reference's frame is its run with the result dropped.
  The idealization rewrote nothing, so there is nothing to preserve.
  Value: the output array after the run is, entry by entry, a strip entry (KernelIdealStrips, over LibRDatCover), which at the
  ideal values is the score of the arguments (KernelIdealCol, KernelIdealInputs, KernelIdealValue) because a finite number minus
  itself is zero (MaxSimSpec; finiteness from the precondition, MaxSimFinite); the reference's result is the same score (RefValue).
-/
import proofs.«145675_j86930138071100_2_alg».proof.Defs
import proofs.«145675_j86930138071100_2_alg».proof.Proof.Gen.Kernel
import proofs.«145675_j86930138071100_2_alg».proof.Proof.Gen.KernelIdeal
import proofs.«145675_j86930138071100_2_alg».proof.Proof.Gen.ReferenceIdeal
import proofs.«145675_j86930138071100_2_alg».proof.Proof.Gen.Pre_finite_inputs
import proofs.«145675_j86930138071100_2_alg».proof.Proof.KernelData
import proofs.«145675_j86930138071100_2_alg».proof.Proof.KernelIdealValue
import proofs.«145675_j86930138071100_2_alg».proof.Proof.RefValue
import proofs.«145675_j86930138071100_2_alg».proof.Proof.MaxSimFinite
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Body.frame m ρ

theorem frame_ki : Cert.frame_KernelIdeal := fun m ρ _ => Cert.KernelIdeal.Body.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the score of the arguments at every (query, document): the kernel's output array by its strips,
    the reference's result by its operations read at an index. -/
theorem algebraic : Cert.algebraic_KernelIdeal_ReferenceIdeal := by
  intro m ρ m' ρ' hpre hagree
  refine ⟨fun c => Cert.KernelIdeal.Body.kOut m c, Cert.KernelIdeal.Body.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨hQ, hqm⟩ := Cert.MaxSim.finite_of_pre _ _ _ _ (hpre c)
  rw [Cert.ReferenceIdeal.Read.val_main_v9_eq, (hagree c).1, (hagree c).2.1, (hagree c).2.2.1, (hagree c).2.2.2]
  show _ = Cert.KernelIdeal.Body.kOut m c
  rw [Cert.KernelIdeal.Body.kOut_eq m c hQ hqm]
  funext i
  rw [eq_ix2 i]
  exact Cert.ReferenceIdeal.RefValue.ref_eq _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
